-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x512 : Shape := ⟨4, ![32, 64, 64, 512]⟩
abbrev S_ : Shape := ⟨0, ![]⟩

class Facts : Prop where
  bcast_S_S32x64x64x512 : S_.BroadcastsInDim S32x64x64x512 (![] : Fin 0 → Fin S32x64x64x512.rank)
  reducesTo_S32x64x64x512_S_d0_1_2_3 : S32x64x64x512.ReducesTo [0, 1, 2, 3] S_
  h_S_ : 0 < S_.numel

variable [Facts]

def fn {F : FTy → Type} [FloatOps F] (main_arg0 : FVec F S32x64x64x512 .f32) : IVec S_ 1 :=
  let main_v0 : FVec F S32x64x64x512 .f32 := Host.absf main_arg0
  let main_cst : FVec F S_ .f32 := constant S_ .f32 0x7F800000#32
  let main_v1 : FVec F S32x64x64x512 .f32 := broadcastInDim S32x64x64x512 ![] bcast_S_S32x64x64x512 main_cst
  let main_v2 : IVec S32x64x64x512 1 := cmpf .olt main_v0 main_v1
  let main_c : IVec S_ 1 := constantI S_ 1 1#1
  let main_v3 : IVec S_ 1 := (fun x v => Host.reduce IntOp.andi x v reducesTo_S32x64x64x512_S_d0_1_2_3 h_S_) main_v2 main_c
  main_v3
-- ==== Kernel.lean ====
abbrev S32x64x64x512 : Shape := ⟨4, ![32, 64, 64, 512]⟩
abbrev S32x21x512 : Shape := ⟨3, ![32, 21, 512]⟩
abbrev S2x64x64x512 : Shape := ⟨4, ![2, 64, 64, 512]⟩
abbrev S2x21x512 : Shape := ⟨3, ![2, 21, 512]⟩
abbrev S1x16x16x512 : Shape := ⟨4, ![1, 16, 16, 512]⟩
abbrev S16x16x512 : Shape := ⟨3, ![16, 16, 512]⟩
abbrev S16x512 : Shape := ⟨2, ![16, 512]⟩
abbrev S512 : Shape := ⟨1, ![512]⟩
abbrev S1x1x512 : Shape := ⟨3, ![1, 1, 512]⟩
abbrev S32x10752 : Shape := ⟨2, ![32, 10752]⟩

abbrev nBuf : Space → Nat
  | .hbm => 3
  | .vmem => 4
  | .smem => 0
  | _ => 0

abbrev bufTy : (tb : Table) → Fin (tcTables nBuf tb) → BufTy
  | .hbm, ⟨0, _⟩ => ⟨S32x64x64x512, .f32⟩
  | .hbm, ⟨1, _⟩ => ⟨S32x21x512, .f32⟩
  | .hbm, ⟨2, _⟩ => ⟨S32x10752, .f32⟩
  | .local _ .vmem, ⟨0, _⟩ => ⟨S2x64x64x512, .f32⟩
  | .local _ .vmem, ⟨1, _⟩ => ⟨S2x64x64x512, .f32⟩
  | .local _ .vmem, ⟨2, _⟩ => ⟨S2x21x512, .f32⟩
  | .local _ .vmem, ⟨3, _⟩ => ⟨S2x21x512, .f32⟩
  | _, _ => ⟨S32x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x21x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x64x64x512_S1x16x16x512_0_0_0_0 : ∀ a, (![0, 0, 0, 0] : Fin 4 → Nat) a + S1x16x16x512.size a ≤ S2x64x64x512.size a
  h_S1x16x16x512 : 0 < S1x16x16x512.numel
  shapeCasts_S1x16x16x512_S16x16x512 : S1x16x16x512.ShapeCasts S16x16x512
  reduces_S16x16x512_S16x512 : S16x16x512.Reduces [0] S16x512
  reduces_S16x512_S512 : S16x512.Reduces [0] S512
  inb_S2x64x64x512_S1x16x16x512_0_0_16_0 : ∀ a, (![0, 0, 16, 0] : Fin 4 → Nat) a + S1x16x16x512.size a ≤ S2x64x64x512.size a
  inb_S2x64x64x512_S1x16x16x512_0_0_32_0 : ∀ a, (![0, 0, 32, 0] : Fin 4 → Nat) a + S1x16x16x512.size a ≤ S2x64x64x512.size a
  inb_S2x64x64x512_S1x16x16x512_0_0_48_0 : ∀ a, (![0, 0, 48, 0] : Fin 4 → Nat) a + S1x16x16x512.size a ≤ S2x64x64x512.size a
  inb_S2x64x64x512_S1x16x16x512_0_16_0_0 : ∀ a, (![0, 16, 0, 0] : Fin 4 → Nat) a + S1x16x16x512.size a ≤ S2x64x64x512.size a
  inb_S2x64x64x512_S1x16x16x512_0_16_16_0 : ∀ a, (![0, 16, 16, 0] : Fin 4 → Nat) a + S1x16x16x512.size a ≤ S2x64x64x512.size a
  inb_S2x64x64x512_S1x16x16x512_0_16_32_0 : ∀ a, (![0, 16, 32, 0] : Fin 4 → Nat) a + S1x16x16x512.size a ≤ S2x64x64x512.size a
  inb_S2x64x64x512_S1x16x16x512_0_16_48_0 : ∀ a, (![0, 16, 48, 0] : Fin 4 → Nat) a + S1x16x16x512.size a ≤ S2x64x64x512.size a
  inb_S2x64x64x512_S1x16x16x512_0_32_0_0 : ∀ a, (![0, 32, 0, 0] : Fin 4 → Nat) a + S1x16x16x512.size a ≤ S2x64x64x512.size a
  inb_S2x64x64x512_S1x16x16x512_0_32_16_0 : ∀ a, (![0, 32, 16, 0] : Fin 4 → Nat) a + S1x16x16x512.size a ≤ S2x64x64x512.size a
  inb_S2x64x64x512_S1x16x16x512_0_32_32_0 : ∀ a, (![0, 32, 32, 0] : Fin 4 → Nat) a + S1x16x16x512.size a ≤ S2x64x64x512.size a
  inb_S2x64x64x512_S1x16x16x512_0_32_48_0 : ∀ a, (![0, 32, 48, 0] : Fin 4 → Nat) a + S1x16x16x512.size a ≤ S2x64x64x512.size a
  inb_S2x64x64x512_S1x16x16x512_0_48_0_0 : ∀ a, (![0, 48, 0, 0] : Fin 4 → Nat) a + S1x16x16x512.size a ≤ S2x64x64x512.size a
  inb_S2x64x64x512_S1x16x16x512_0_48_16_0 : ∀ a, (![0, 48, 16, 0] : Fin 4 → Nat) a + S1x16x16x512.size a ≤ S2x64x64x512.size a
  inb_S2x64x64x512_S1x16x16x512_0_48_32_0 : ∀ a, (![0, 48, 32, 0] : Fin 4 → Nat) a + S1x16x16x512.size a ≤ S2x64x64x512.size a
  inb_S2x64x64x512_S1x16x16x512_0_48_48_0 : ∀ a, (![0, 48, 48, 0] : Fin 4 → Nat) a + S1x16x16x512.size a ≤ S2x64x64x512.size a
  inb_S2x21x512_S1x1x512_0_5_0 : ∀ a, (![0, 5, 0] : Fin 3 → Nat) a + S1x1x512.size a ≤ S2x21x512.size a
  h_S1x1x512 : 0 < S1x1x512.numel
  shapeCasts_S1x1x512_S512 : S1x1x512.ShapeCasts S512
  shapeCasts_S512_S1x1x512 : S512.ShapeCasts S1x1x512
  inb_S2x21x512_S1x1x512_0_6_0 : ∀ a, (![0, 6, 0] : Fin 3 → Nat) a + S1x1x512.size a ≤ S2x21x512.size a
  inb_S2x21x512_S1x1x512_0_7_0 : ∀ a, (![0, 7, 0] : Fin 3 → Nat) a + S1x1x512.size a ≤ S2x21x512.size a
  inb_S2x21x512_S1x1x512_0_8_0 : ∀ a, (![0, 8, 0] : Fin 3 → Nat) a + S1x1x512.size a ≤ S2x21x512.size a
  inb_S2x21x512_S1x1x512_0_9_0 : ∀ a, (![0, 9, 0] : Fin 3 → Nat) a + S1x1x512.size a ≤ S2x21x512.size a
  inb_S2x21x512_S1x1x512_0_10_0 : ∀ a, (![0, 10, 0] : Fin 3 → Nat) a + S1x1x512.size a ≤ S2x21x512.size a
  inb_S2x21x512_S1x1x512_0_11_0 : ∀ a, (![0, 11, 0] : Fin 3 → Nat) a + S1x1x512.size a ≤ S2x21x512.size a
  inb_S2x21x512_S1x1x512_0_12_0 : ∀ a, (![0, 12, 0] : Fin 3 → Nat) a + S1x1x512.size a ≤ S2x21x512.size a
  inb_S2x21x512_S1x1x512_0_13_0 : ∀ a, (![0, 13, 0] : Fin 3 → Nat) a + S1x1x512.size a ≤ S2x21x512.size a
  inb_S2x21x512_S1x1x512_0_14_0 : ∀ a, (![0, 14, 0] : Fin 3 → Nat) a + S1x1x512.size a ≤ S2x21x512.size a
  inb_S2x21x512_S1x1x512_0_15_0 : ∀ a, (![0, 15, 0] : Fin 3 → Nat) a + S1x1x512.size a ≤ S2x21x512.size a
  inb_S2x21x512_S1x1x512_0_16_0 : ∀ a, (![0, 16, 0] : Fin 3 → Nat) a + S1x1x512.size a ≤ S2x21x512.size a
  inb_S2x21x512_S1x1x512_0_17_0 : ∀ a, (![0, 17, 0] : Fin 3 → Nat) a + S1x1x512.size a ≤ S2x21x512.size a
  inb_S2x21x512_S1x1x512_0_18_0 : ∀ a, (![0, 18, 0] : Fin 3 → Nat) a + S1x1x512.size a ≤ S2x21x512.size a
  inb_S2x21x512_S1x1x512_0_19_0 : ∀ a, (![0, 19, 0] : Fin 3 → Nat) a + S1x1x512.size a ≤ S2x21x512.size a
  inb_S2x21x512_S1x1x512_0_20_0 : ∀ a, (![0, 20, 0] : Fin 3 → Nat) a + S1x1x512.size a ≤ S2x21x512.size a
  inb_S2x21x512_S1x1x512_0_1_0 : ∀ a, (![0, 1, 0] : Fin 3 → Nat) a + S1x1x512.size a ≤ S2x21x512.size a
  inb_S2x21x512_S1x1x512_0_2_0 : ∀ a, (![0, 2, 0] : Fin 3 → Nat) a + S1x1x512.size a ≤ S2x21x512.size a
  inb_S2x21x512_S1x1x512_0_3_0 : ∀ a, (![0, 3, 0] : Fin 3 → Nat) a + S1x1x512.size a ≤ S2x21x512.size a
  inb_S2x21x512_S1x1x512_0_4_0 : ∀ a, (![0, 4, 0] : Fin 3 → Nat) a + S1x1x512.size a ≤ S2x21x512.size a
  inb_S2x21x512_S1x1x512_0_0_0 : ∀ a, (![0, 0, 0] : Fin 3 → Nat) a + S1x1x512.size a ≤ S2x21x512.size a
  inb_S2x64x64x512_S1x16x16x512_1_0_0_0 : ∀ a, (![1, 0, 0, 0] : Fin 4 → Nat) a + S1x16x16x512.size a ≤ S2x64x64x512.size a
  inb_S2x64x64x512_S1x16x16x512_1_0_16_0 : ∀ a, (![1, 0, 16, 0] : Fin 4 → Nat) a + S1x16x16x512.size a ≤ S2x64x64x512.size a
  inb_S2x64x64x512_S1x16x16x512_1_0_32_0 : ∀ a, (![1, 0, 32, 0] : Fin 4 → Nat) a + S1x16x16x512.size a ≤ S2x64x64x512.size a
  inb_S2x64x64x512_S1x16x16x512_1_0_48_0 : ∀ a, (![1, 0, 48, 0] : Fin 4 → Nat) a + S1x16x16x512.size a ≤ S2x64x64x512.size a
  inb_S2x64x64x512_S1x16x16x512_1_16_0_0 : ∀ a, (![1, 16, 0, 0] : Fin 4 → Nat) a + S1x16x16x512.size a ≤ S2x64x64x512.size a
  inb_S2x64x64x512_S1x16x16x512_1_16_16_0 : ∀ a, (![1, 16, 16, 0] : Fin 4 → Nat) a + S1x16x16x512.size a ≤ S2x64x64x512.size a
  inb_S2x64x64x512_S1x16x16x512_1_16_32_0 : ∀ a, (![1, 16, 32, 0] : Fin 4 → Nat) a + S1x16x16x512.size a ≤ S2x64x64x512.size a
  inb_S2x64x64x512_S1x16x16x512_1_16_48_0 : ∀ a, (![1, 16, 48, 0] : Fin 4 → Nat) a + S1x16x16x512.size a ≤ S2x64x64x512.size a
  inb_S2x64x64x512_S1x16x16x512_1_32_0_0 : ∀ a, (![1, 32, 0, 0] : Fin 4 → Nat) a + S1x16x16x512.size a ≤ S2x64x64x512.size a
  inb_S2x64x64x512_S1x16x16x512_1_32_16_0 : ∀ a, (![1, 32, 16, 0] : Fin 4 → Nat) a + S1x16x16x512.size a ≤ S2x64x64x512.size a
  inb_S2x64x64x512_S1x16x16x512_1_32_32_0 : ∀ a, (![1, 32, 32, 0] : Fin 4 → Nat) a + S1x16x16x512.size a ≤ S2x64x64x512.size a
  inb_S2x64x64x512_S1x16x16x512_1_32_48_0 : ∀ a, (![1, 32, 48, 0] : Fin 4 → Nat) a + S1x16x16x512.size a ≤ S2x64x64x512.size a
  inb_S2x64x64x512_S1x16x16x512_1_48_0_0 : ∀ a, (![1, 48, 0, 0] : Fin 4 → Nat) a + S1x16x16x512.size a ≤ S2x64x64x512.size a
  inb_S2x64x64x512_S1x16x16x512_1_48_16_0 : ∀ a, (![1, 48, 16, 0] : Fin 4 → Nat) a + S1x16x16x512.size a ≤ S2x64x64x512.size a
  inb_S2x64x64x512_S1x16x16x512_1_48_32_0 : ∀ a, (![1, 48, 32, 0] : Fin 4 → Nat) a + S1x16x16x512.size a ≤ S2x64x64x512.size a
  inb_S2x64x64x512_S1x16x16x512_1_48_48_0 : ∀ a, (![1, 48, 48, 0] : Fin 4 → Nat) a + S1x16x16x512.size a ≤ S2x64x64x512.size a
  inb_S2x21x512_S1x1x512_1_5_0 : ∀ a, (![1, 5, 0] : Fin 3 → Nat) a + S1x1x512.size a ≤ S2x21x512.size a
  inb_S2x21x512_S1x1x512_1_6_0 : ∀ a, (![1, 6, 0] : Fin 3 → Nat) a + S1x1x512.size a ≤ S2x21x512.size a
  inb_S2x21x512_S1x1x512_1_7_0 : ∀ a, (![1, 7, 0] : Fin 3 → Nat) a + S1x1x512.size a ≤ S2x21x512.size a
  inb_S2x21x512_S1x1x512_1_8_0 : ∀ a, (![1, 8, 0] : Fin 3 → Nat) a + S1x1x512.size a ≤ S2x21x512.size a
  inb_S2x21x512_S1x1x512_1_9_0 : ∀ a, (![1, 9, 0] : Fin 3 → Nat) a + S1x1x512.size a ≤ S2x21x512.size a
  inb_S2x21x512_S1x1x512_1_10_0 : ∀ a, (![1, 10, 0] : Fin 3 → Nat) a + S1x1x512.size a ≤ S2x21x512.size a
  inb_S2x21x512_S1x1x512_1_11_0 : ∀ a, (![1, 11, 0] : Fin 3 → Nat) a + S1x1x512.size a ≤ S2x21x512.size a
  inb_S2x21x512_S1x1x512_1_12_0 : ∀ a, (![1, 12, 0] : Fin 3 → Nat) a + S1x1x512.size a ≤ S2x21x512.size a
  inb_S2x21x512_S1x1x512_1_13_0 : ∀ a, (![1, 13, 0] : Fin 3 → Nat) a + S1x1x512.size a ≤ S2x21x512.size a
  inb_S2x21x512_S1x1x512_1_14_0 : ∀ a, (![1, 14, 0] : Fin 3 → Nat) a + S1x1x512.size a ≤ S2x21x512.size a
  inb_S2x21x512_S1x1x512_1_15_0 : ∀ a, (![1, 15, 0] : Fin 3 → Nat) a + S1x1x512.size a ≤ S2x21x512.size a
  inb_S2x21x512_S1x1x512_1_16_0 : ∀ a, (![1, 16, 0] : Fin 3 → Nat) a + S1x1x512.size a ≤ S2x21x512.size a
  inb_S2x21x512_S1x1x512_1_17_0 : ∀ a, (![1, 17, 0] : Fin 3 → Nat) a + S1x1x512.size a ≤ S2x21x512.size a
  inb_S2x21x512_S1x1x512_1_18_0 : ∀ a, (![1, 18, 0] : Fin 3 → Nat) a + S1x1x512.size a ≤ S2x21x512.size a
  inb_S2x21x512_S1x1x512_1_19_0 : ∀ a, (![1, 19, 0] : Fin 3 → Nat) a + S1x1x512.size a ≤ S2x21x512.size a
  inb_S2x21x512_S1x1x512_1_20_0 : ∀ a, (![1, 20, 0] : Fin 3 → Nat) a + S1x1x512.size a ≤ S2x21x512.size a
  inb_S2x21x512_S1x1x512_1_1_0 : ∀ a, (![1, 1, 0] : Fin 3 → Nat) a + S1x1x512.size a ≤ S2x21x512.size a
  inb_S2x21x512_S1x1x512_1_2_0 : ∀ a, (![1, 2, 0] : Fin 3 → Nat) a + S1x1x512.size a ≤ S2x21x512.size a
  inb_S2x21x512_S1x1x512_1_3_0 : ∀ a, (![1, 3, 0] : Fin 3 → Nat) a + S1x1x512.size a ≤ S2x21x512.size a
  inb_S2x21x512_S1x1x512_1_4_0 : ∀ a, (![1, 4, 0] : Fin 3 → Nat) a + S1x1x512.size a ≤ S2x21x512.size a
  inb_S2x21x512_S1x1x512_1_0_0 : ∀ a, (![1, 0, 0] : Fin 3 → Nat) a + S1x1x512.size a ≤ S2x21x512.size a
  shapeCasts_S32x21x512_S32x10752 : S32x21x512.ShapeCasts S32x10752
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x64x512.size a ≤ S32x64x64x512.size a
  hwx0_0 : ∀ i : grid0.Coords, EltTy.bits .f32 = 32 ∨ (Rect.block (s := S32x64x64x512) S2x64x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x21x512.size a ≤ S32x21x512.size a
  hwx0_1 : ∀ i : grid0.Coords, EltTy.bits .f32 = 32 ∨ (Rect.block (s := S32x21x512) S2x21x512.size (cc0_transform_1 i) (hinb0_1 i)).WholeWords (EltTy.packing .f32)

variable [Facts₀]

abbrev win0_0 : Pipeline.Window sig grid0 :=
  Pipeline.Window.ofSpec (Memref.whole main_arg0) S2x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x21x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x64x512 : Shape := ⟨4, ![32, 64, 64, 512]⟩
abbrev S32x1x64x1x64x512 : Shape := ⟨6, ![32, 1, 64, 1, 64, 512]⟩
abbrev S_ : Shape := ⟨0, ![]⟩
abbrev S32x1x1x512 : Shape := ⟨4, ![32, 1, 1, 512]⟩
abbrev S32x512 : Shape := ⟨2, ![32, 512]⟩
abbrev S32x2x32x2x32x512 : Shape := ⟨6, ![32, 2, 32, 2, 32, 512]⟩
abbrev S32x2x2x512 : Shape := ⟨4, ![32, 2, 2, 512]⟩
abbrev S32x2048 : Shape := ⟨2, ![32, 2048]⟩
abbrev S32x4x16x4x16x512 : Shape := ⟨6, ![32, 4, 16, 4, 16, 512]⟩
abbrev S32x4x4x512 : Shape := ⟨4, ![32, 4, 4, 512]⟩
abbrev S32x8192 : Shape := ⟨2, ![32, 8192]⟩
abbrev S32x10752 : Shape := ⟨2, ![32, 10752]⟩

abbrev nBuf : Space → Nat
  | .hbm => 35
  | .vmem => 0
  | .smem => 0
  | _ => 0

abbrev bufTy : (tb : Table) → Fin (tcTables nBuf tb) → BufTy
  | .hbm, ⟨0, _⟩ => ⟨S32x64x64x512, .f32⟩
  | .hbm, ⟨1, _⟩ => ⟨S32x1x64x1x64x512, .f32⟩
  | .hbm, ⟨2, _⟩ => ⟨S_, .f32⟩
  | .hbm, ⟨3, _⟩ => ⟨S32x1x1x512, .f32⟩
  | .hbm, ⟨4, _⟩ => ⟨S_, .f32⟩
  | .hbm, ⟨5, _⟩ => ⟨S32x1x1x512, .f32⟩
  | .hbm, ⟨6, _⟩ => ⟨S_, .f32⟩
  | .hbm, ⟨7, _⟩ => ⟨S32x1x1x512, .f32⟩
  | .hbm, ⟨8, _⟩ => ⟨S32x1x1x512, .f32⟩
  | .hbm, ⟨9, _⟩ => ⟨S32x1x1x512, .f32⟩
  | .hbm, ⟨10, _⟩ => ⟨S32x1x1x512, .f32⟩
  | .hbm, ⟨11, _⟩ => ⟨S32x512, .f32⟩
  | .hbm, ⟨12, _⟩ => ⟨S32x2x32x2x32x512, .f32⟩
  | .hbm, ⟨13, _⟩ => ⟨S_, .f32⟩
  | .hbm, ⟨14, _⟩ => ⟨S32x2x2x512, .f32⟩
  | .hbm, ⟨15, _⟩ => ⟨S_, .f32⟩
  | .hbm, ⟨16, _⟩ => ⟨S32x2x2x512, .f32⟩
  | .hbm, ⟨17, _⟩ => ⟨S_, .f32⟩
  | .hbm, ⟨18, _⟩ => ⟨S32x2x2x512, .f32⟩
  | .hbm, ⟨19, _⟩ => ⟨S32x2x2x512, .f32⟩
  | .hbm, ⟨20, _⟩ => ⟨S32x2x2x512, .f32⟩
  | .hbm, ⟨21, _⟩ => ⟨S32x2x2x512, .f32⟩
  | .hbm, ⟨22, _⟩ => ⟨S32x2048, .f32⟩
  | .hbm, ⟨23, _⟩ => ⟨S32x4x16x4x16x512, .f32⟩
  | .hbm, ⟨24, _⟩ => ⟨S_, .f32⟩
  | .hbm, ⟨25, _⟩ => ⟨S32x4x4x512, .f32⟩
  | .hbm, ⟨26, _⟩ => ⟨S_, .f32⟩
  | .hbm, ⟨27, _⟩ => ⟨S32x4x4x512, .f32⟩
  | .hbm, ⟨28, _⟩ => ⟨S_, .f32⟩
  | .hbm, ⟨29, _⟩ => ⟨S32x4x4x512, .f32⟩
  | .hbm, ⟨30, _⟩ => ⟨S32x4x4x512, .f32⟩
  | .hbm, ⟨31, _⟩ => ⟨S32x4x4x512, .f32⟩
  | .hbm, ⟨32, _⟩ => ⟨S32x4x4x512, .f32⟩
  | .hbm, ⟨33, _⟩ => ⟨S32x8192, .f32⟩
  | .hbm, ⟨34, _⟩ => ⟨S32x10752, .f32⟩
  | _, _ => ⟨S32x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_cst_4 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_cst_6 : Ref sig .tc := ⟨.hbm, 26, rfl⟩
abbrev main_v18 : Ref sig .tc := ⟨.hbm, 27, rfl⟩
abbrev main_cst_7 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  shapeCasts_S32x64x64x512_S32x1x64x1x64x512 : S32x64x64x512.ShapeCasts S32x1x64x1x64x512
  reducesTo_S32x1x64x1x64x512_S32x1x1x512_d2_4 : S32x1x64x1x64x512.ReducesTo [2, 4] S32x1x1x512
  h_S_ : 0 < S_.numel
  bcast_S_S32x1x1x512 : S_.BroadcastsInDim S32x1x1x512 (![] : Fin 0 → Fin S32x1x1x512.rank)
  transposes_S32x1x1x512_S32x1x1x512_0_2_1_3 : S32x1x1x512.Transposes [0, 2, 1, 3] S32x1x1x512
  shapeCasts_S32x1x1x512_S32x512 : S32x1x1x512.ShapeCasts S32x512
  shapeCasts_S32x64x64x512_S32x2x32x2x32x512 : S32x64x64x512.ShapeCasts S32x2x32x2x32x512
  reducesTo_S32x2x32x2x32x512_S32x2x2x512_d2_4 : S32x2x32x2x32x512.ReducesTo [2, 4] S32x2x2x512
  bcast_S_S32x2x2x512 : S_.BroadcastsInDim S32x2x2x512 (![] : Fin 0 → Fin S32x2x2x512.rank)
  transposes_S32x2x2x512_S32x2x2x512_0_2_1_3 : S32x2x2x512.Transposes [0, 2, 1, 3] S32x2x2x512
  shapeCasts_S32x2x2x512_S32x2048 : S32x2x2x512.ShapeCasts S32x2048
  shapeCasts_S32x64x64x512_S32x4x16x4x16x512 : S32x64x64x512.ShapeCasts S32x4x16x4x16x512
  reducesTo_S32x4x16x4x16x512_S32x4x4x512_d2_4 : S32x4x16x4x16x512.ReducesTo [2, 4] S32x4x4x512
  bcast_S_S32x4x4x512 : S_.BroadcastsInDim S32x4x4x512 (![] : Fin 0 → Fin S32x4x4x512.rank)
  transposes_S32x4x4x512_S32x4x4x512_0_2_1_3 : S32x4x4x512.Transposes [0, 2, 1, 3] S32x4x4x512
  shapeCasts_S32x4x4x512_S32x8192 : S32x4x4x512.ShapeCasts S32x8192
  concatenates_S32x512_S32x2048_S32x8192_S32x10752_d1 : Shape.Concatenates [S32x512, S32x2048, S32x8192] S32x10752 1

variable [Facts₀]

class Facts : Prop extends Facts₀ where

variable [Facts]
-- ==== Proof.LibBlockSum.lean ====
/-
  Three general facts about finite sums in a commutative additive monoid, with no program in sight: a running total
  that starts at the first term and adds the next term at every step is the sum of the terms so far; a sum over an
  initial segment of the naturals is the sum over the finite type of its elements; and a sum over `a * b` indices
  regroups into `a` consecutive blocks of `b`.
-/
import Mathlib.Algebra.BigOperators.Fin
import Mathlib.Data.Fintype.BigOperators
import Mathlib.Logic.Equiv.Fin.Basic
import Mathlib.Tactic.Ring

open scoped BigOperators

namespace Cert.LibBlockSum

/-- A RUNNING TOTAL IS A SUM. If `acc 0` is the first term and each step adds the next term, then after step `n` the
    total is the sum of the terms `0, …, n`. -/
theorem run_sum {M : Type*} [AddCommMonoid M] (g acc : ℕ → M) (h0 : acc 0 = g 0)
    (hs : ∀ k, acc (k + 1) = acc k + g (k + 1)) (n : ℕ) : acc n = ∑ k ∈ Finset.range (n + 1), g k := by
  induction n with
  | zero => rw [Finset.sum_range_succ, Finset.sum_range_zero, zero_add]; exact h0
  | succ n ih => rw [hs, ih, Finset.sum_range_succ _ (n + 1)]

/-- The same from an EMPTY start: if `acc 0` is zero and step `k` adds the term `k`, then after `n` steps the total is
    the sum of the terms `0, …, n - 1`. -/
theorem run_sum_zero {M : Type*} [AddCommMonoid M] (g acc : ℕ → M) (h0 : acc 0 = 0)
    (hs : ∀ k, acc (k + 1) = acc k + g k) (n : ℕ) : acc n = ∑ k ∈ Finset.range n, g k := by
  induction n with
  | zero => rw [Finset.sum_range_zero]; exact h0
  | succ n ih => rw [hs, ih, Finset.sum_range_succ]

/-- A sum over the naturals below `n` is the sum over `Fin n` of the term at each element's value
    (Mathlib's `Finset.sum_range`). -/
theorem sum_range_eq_sum_fin {M : Type*} [AddCommMonoid M] (n : ℕ) (g : ℕ → M) :
    ∑ k ∈ Finset.range n, g k = ∑ k : Fin n, g k.val :=
  Finset.sum_range g

/-- Position `j` of block `i`, among `a` consecutive blocks of `b`, is below `a * b`. -/
theorem block_lt {a b : ℕ} (i : Fin a) (j : Fin b) : b * i.val + j.val < a * b := by
  have hi : i.val + 1 ≤ a := i.isLt
  calc b * i.val + j.val < b * i.val + b := Nat.add_lt_add_left j.isLt _
    _ = b * (i.val + 1) := by ring
    _ ≤ b * a := Nat.mul_le_mul_left b hi
    _ = a * b := Nat.mul_comm b a

/-- REGROUPING INTO BLOCKS. A sum over `a * b` indices is the sum, over the `a` consecutive blocks of `b` indices, of the
    sum over each block: index `b * i + j` is position `j` of block `i` (the bijection `finProdFinEquiv`). -/
theorem sum_blocks_mul {M : Type*} [AddCommMonoid M] (a b : ℕ) (f : Fin (a * b) → M) :
    ∑ i : Fin a, ∑ j : Fin b, f ⟨b * i.val + j.val, block_lt i j⟩ = ∑ k : Fin (a * b), f k := by
  rw [← Equiv.sum_comp finProdFinEquiv f, Fintype.sum_prod_type]
  refine Finset.sum_congr rfl fun i _ => Finset.sum_congr rfl fun j _ => congrArg f (Fin.ext ?_)
  show b * i.val + j.val = j.val + b * i.val
  exact Nat.add_comm _ _

/-- The instance used by a pass over 16 column blocks of 256 columns: 4096 columns in all. -/
theorem sum_blocks {M : Type*} [AddCommMonoid M] (f : Fin 4096 → M) :
    ∑ cb : Fin 16, ∑ l : Fin 256, f ⟨256 * cb.val + l.val, block_lt (a := 16) cb l⟩ = ∑ j : Fin 4096, f j :=
  sum_blocks_mul 16 256 f

/-- … and the one used by a pass over 8 row blocks of 512 rows: 4096 rows in all. -/
theorem sum_row_blocks {M : Type*} [AddCommMonoid M] (f : Fin 4096 → M) :
    ∑ rb : Fin 8, ∑ r : Fin 512, f ⟨512 * rb.val + r.val, block_lt (a := 8) rb r⟩ = ∑ i : Fin 4096, f i :=
  sum_blocks_mul 8 512 f

end Cert.LibBlockSum
-- ==== Proof.LibTiledSup.lean ====
/-
  Finite suprema on the extended reals, taken tile by tile.

  The extended reals are a complete linear order with a least element, and 0 * x = 0, x * 0 = 0, 1 * x = x,
  x * 1 = x hold for every extended real, so none of the statements below needs a finiteness hypothesis.
  A condition enters as a 0/1 factor (if-then-else on an arbitrary proposition, decided classically).
-/
import Mathlib.Data.EReal.Basic
import Mathlib.Data.EReal.Operations
import Mathlib.Order.Fin.Basic
import Mathlib.Data.Finset.Lattice.Fold
import Mathlib.Data.Fintype.Basic

open Classical

namespace Cert.LibTiledSup

/-- Folding max over a finite set, starting from the least element, gives the finite supremum. -/
theorem fold_max_eq_sup {ι : Type*} (s : Finset ι) (f : ι → EReal) : s.fold max ⊥ f = s.sup f := by
  induction s using Finset.induction_on with
  | empty => simp
  | insert a s ha ih => rw [Finset.fold_insert ha, Finset.sup_insert, ih]

/-- A running maximum: if acc 0 = max z (f 0) and acc (n + 1) = max (acc n) (f (n + 1)), then acc n is the maximum
of z and the supremum of f 0, …, f n. -/
theorem running_max (f acc : ℕ → EReal) (z : EReal) (h0 : acc 0 = max z (f 0))
    (hs : ∀ n, acc (n + 1) = max (acc n) (f (n + 1))) (n : ℕ) :
    acc n = max z ((Finset.range (n + 1)).sup f) := by
  induction n with
  | zero => simpa using h0
  | succ n ih =>
    rw [hs, ih, Finset.range_add_one (n := n + 1), Finset.sup_insert, max_assoc, max_comm (f (n + 1))]

/-- The supremum over n < N of a function that is g n below N (and the least element elsewhere) is the supremum
of g over all of Fin N. -/
theorem sup_range_dite {N : ℕ} (g : Fin N → EReal) :
    (Finset.range N).sup (fun n => if h : n < N then g ⟨n, h⟩ else ⊥) = Finset.univ.sup g := by
  apply le_antisymm
  · refine Finset.sup_le fun n hn => ?_
    have h : n < N := Finset.mem_range.1 hn
    rw [dif_pos h]
    exact Finset.le_sup (f := g) (Finset.mem_univ _)
  · refine Finset.sup_le fun i _ => ?_
    have h := Finset.le_sup (f := fun n => if h : n < N then g ⟨n, h⟩ else ⊥) (Finset.mem_range.2 i.2)
    simpa [dif_pos i.2] using h

/-- A supremum taken tile by tile, the conditions applied as 0/1 factors first along the columns and then along
the rows, is the supremum over the whole index set of the values kept where both conditions hold and replaced
by 0 elsewhere. Every (row, column) pair lies in some tile, which gives ≥; each tile entry is one of the
values on the right, which gives ≤. Where the row condition fails, the left inner term is (sup …) * 0 = 0, and
0 is also a value on the right because a tile has at least one column. -/
theorem tiled_masked_sup {T Rl Cl R C : Type*} [Fintype T] [Fintype Rl] [Fintype Cl] [Fintype R] [Fintype C]
    [Nonempty Cl]
    (row : T → Rl → R) (col : T → Cl → C) (hsurj : ∀ i j, ∃ t r c, row t r = i ∧ col t c = j)
    (a : R → C → EReal) (P : R → Prop) (V : C → Prop) :
    (Finset.univ.sup fun t : T => Finset.univ.sup fun r : Rl =>
        (Finset.univ.sup fun c : Cl => a (row t r) (col t c) * (if V (col t c) then (1 : EReal) else 0))
          * (if P (row t r) then (1 : EReal) else 0))
      = Finset.univ.sup fun i : R => Finset.univ.sup fun j : C => if P i ∧ V j then a i j else 0 := by
  -- every value on the right is below the right-hand side
  have hR : ∀ i j, (if P i ∧ V j then a i j else 0)
      ≤ Finset.univ.sup fun i : R => Finset.univ.sup fun j : C => if P i ∧ V j then a i j else 0 :=
    fun i j => (Finset.le_sup (f := fun j : C => if P i ∧ V j then a i j else 0) (Finset.mem_univ j)).trans
      (Finset.le_sup (f := fun i : R => Finset.univ.sup fun j : C => if P i ∧ V j then a i j else 0)
        (Finset.mem_univ i))
  -- every tile row term is below the left-hand side
  have hL : ∀ t r, (Finset.univ.sup fun c : Cl => a (row t r) (col t c) * (if V (col t c) then (1 : EReal) else 0))
        * (if P (row t r) then (1 : EReal) else 0)
      ≤ Finset.univ.sup fun t : T => Finset.univ.sup fun r : Rl =>
        (Finset.univ.sup fun c : Cl => a (row t r) (col t c) * (if V (col t c) then (1 : EReal) else 0))
          * (if P (row t r) then (1 : EReal) else 0) :=
    fun t r => (Finset.le_sup (f := fun r : Rl =>
        (Finset.univ.sup fun c : Cl => a (row t r) (col t c) * (if V (col t c) then (1 : EReal) else 0))
          * (if P (row t r) then (1 : EReal) else 0)) (Finset.mem_univ r)).trans
      (Finset.le_sup (f := fun t : T => Finset.univ.sup fun r : Rl =>
        (Finset.univ.sup fun c : Cl => a (row t r) (col t c) * (if V (col t c) then (1 : EReal) else 0))
          * (if P (row t r) then (1 : EReal) else 0)) (Finset.mem_univ t))
  apply le_antisymm
  · refine Finset.sup_le fun t _ => Finset.sup_le fun r _ => ?_
    by_cases hp : P (row t r)
    · rw [if_pos hp, mul_one]
      refine Finset.sup_le fun c _ => ?_
      by_cases hv : V (col t c)
      · rw [if_pos hv, mul_one]
        simpa [hp, hv] using hR (row t r) (col t c)
      · rw [if_neg hv, mul_zero]
        simpa [hv] using hR (row t r) (col t c)
    · rw [if_neg hp, mul_zero]
      obtain ⟨c⟩ := ‹Nonempty Cl›
      simpa [hp] using hR (row t r) (col t c)
  · refine Finset.sup_le fun i _ => Finset.sup_le fun j _ => ?_
    obtain ⟨t, r, c, rfl, rfl⟩ := hsurj i j
    refine le_trans ?_ (hL t r)
    by_cases hp : P (row t r)
    · rw [if_pos hp, mul_one]
      refine le_trans ?_ (Finset.le_sup (f := fun c : Cl =>
        a (row t r) (col t c) * (if V (col t c) then (1 : EReal) else 0)) (Finset.mem_univ c))
      by_cases hv : V (col t c)
      · simp [hp, hv]
      · simp [hv]
    · simp [hp]

/-- The "some row satisfies the condition" flag, accumulated tile by tile as a maximum of 0/1 values starting
from 0, is positive exactly when some row of the whole index set satisfies the condition. -/
theorem tiled_any_pos {T Rl R : Type*} [Fintype T] [Fintype Rl] [Fintype R]
    (row : T → Rl → R) (hsurj : ∀ i, ∃ t r, row t r = i) (P : R → Prop) :
    (0 : EReal) < max 0 (Finset.univ.sup fun t : T => Finset.univ.sup fun r : Rl =>
        if P (row t r) then (1 : EReal) else 0) ↔ ∃ i, P i := by
  constructor
  · intro h
    rcases lt_max_iff.1 h with h | h
    · exact absurd h (lt_irrefl _)
    · obtain ⟨t, -, ht⟩ := Finset.lt_sup_iff.1 h
      obtain ⟨r, -, hr⟩ := Finset.lt_sup_iff.1 ht
      by_cases hp : P (row t r)
      · exact ⟨_, hp⟩
      · simp [hp] at hr
  · rintro ⟨i, hi⟩
    obtain ⟨t, r, rfl⟩ := hsurj i
    refine lt_max_iff.2 (Or.inr ?_)
    refine Finset.lt_sup_iff.2 ⟨t, Finset.mem_univ _, Finset.lt_sup_iff.2 ⟨r, Finset.mem_univ _, ?_⟩⟩
    simp [hi]

/-- Every pair (i, j) with i < 4096 and j < 2048 lies in a tile: with t = 16 * (i / 512) + j / 128,
r = i % 512 and c = j % 128 one has 512 * (t / 16) + r = i and 128 * (t % 16) + c = j. -/
theorem tile_surj : ∀ (i : Fin 4096) (j : Fin 2048), ∃ (t : Fin 128) (r : Fin 512) (c : Fin 128),
    (⟨512 * (t.val / 16) + r.val, by omega⟩ : Fin 4096) = i
      ∧ (⟨128 * (t.val % 16) + c.val, by omega⟩ : Fin 2048) = j := by
  intro i j
  refine ⟨⟨16 * (i.val / 512) + j.val / 128, by omega⟩, ⟨i.val % 512, by omega⟩, ⟨j.val % 128, by omega⟩,
    ?_, ?_⟩
  · apply Fin.ext
    simp only
    omega
  · apply Fin.ext
    simp only
    omega

end Cert.LibTiledSup
-- ==== Proof.Spec.lean ====
/-
  Spatial pyramid pooling with the "mix" statistic — maximum plus mean — of an array x[b, h, w, ch] whose plane
  h, w is 64 × 64, over three levels: the plane cut into 1 × 1, 2 × 2 and 4 × 4 equal bins, 21 bins in all.

  Everything is built from the finest cut. A CELL (r, c), r, c < 4, is the 16 × 16 square of rows 16 r … 16 r + 15
  and columns 16 c … 16 c + 15; its maximum and its sum are taken over the 256 entries of the square. A bin of the
  2 × 2 level is the union of 2 × 2 cells and the one bin of the 1 × 1 level the union of all 16, so a coarser bin's
  maximum is the maximum of its cells' maxima and its sum the sum of its cells' sums; its mean is that sum times
  1 / (number of entries): 1/256, 1/1024, 1/4096, all exact binary fractions. The value of a bin is maximum + mean.

  The bins are numbered level by level, coarsest first (0; 1 … 4; 5 … 20), and inside a level with the COLUMN
  bin outermost: bin number = first of the level + (column bin) · (bins per side) + (row bin). The result row of
  batch entry b is the 21 bins' 512 channels one after the other: position 512 · k + ch.

  Extended-real arithmetic only: addition and maximum are commutative and associative there, and a product with
  a positive real constant is all that is asked of multiplication, so nothing below needs the entries finite.
-/
import Idealize.ShloMosaic.PureOps.Ideal
import Idealize.ShloMosaic.Lib.ValueIdx
import proofs.«141487_j40166534152820_2_alg».proof.Proof.LibBlockSum
import proofs.«141487_j40166534152820_2_alg».proof.Proof.LibTiledSup

noncomputable section

open scoped BigOperators

namespace Cert.Pyramid

open Idealize.ShloMosaic Idealize.ShloMosaic.ValueIdx

/-! ## Cells and bins -/

/-- Position `i` of the `r`-th run of 16 along an axis of length 64. -/
def at16 (r : Fin 4) (i : Fin 16) : Fin 64 := ⟨16 * r.val + i.val, by omega⟩

theorem at16_val (r : Fin 4) (i : Fin 16) : (at16 r i).val = 16 * r.val + i.val := rfl

/-- Position `i` of the `R`-th run of 32 along an axis of length 64. -/
def at32 (R : Fin 2) (i : Fin 32) : Fin 64 := ⟨32 * R.val + i.val, by omega⟩

theorem at32_val (R : Fin 2) (i : Fin 32) : (at32 R i).val = 32 * R.val + i.val := rfl

/-- The `d`-th of the two cell rows (or columns) that make up row (or column) bin `R` of the 2 × 2 level. -/
def sub2 (R : Fin 2) (d : Fin 2) : Fin 4 := ⟨2 * R.val + d.val, by omega⟩

theorem sub2_val (R d : Fin 2) : (sub2 R d).val = 2 * R.val + d.val := rfl

variable {B : ℕ}

/-- The maximum of cell (r, c) of the plane of batch entry `b`, channel `ch`: columns outermost, rows innermost. -/
def cellMax (x : (⟨4, ![B, 64, 64, 512]⟩ : Shape).Idx → EReal) (b : Fin B) (r c : Fin 4) (ch : Fin 512) : EReal :=
  Finset.univ.sup fun j : Fin 16 => Finset.univ.sup fun i : Fin 16 => x (ix4 b (at16 r i) (at16 c j) ch)

/-- The sum of the same cell. -/
def cellSum (x : (⟨4, ![B, 64, 64, 512]⟩ : Shape).Idx → EReal) (b : Fin B) (r c : Fin 4) (ch : Fin 512) : EReal :=
  ∑ j : Fin 16, ∑ i : Fin 16, x (ix4 b (at16 r i) (at16 c j) ch)

/-- Bin (R, C) of the 2 × 2 level: the maximum over its 2 × 2 cells, -/
def max2 (x : (⟨4, ![B, 64, 64, 512]⟩ : Shape).Idx → EReal) (b : Fin B) (R C : Fin 2) (ch : Fin 512) : EReal :=
  Finset.univ.sup fun dr : Fin 2 => Finset.univ.sup fun dc : Fin 2 => cellMax x b (sub2 R dr) (sub2 C dc) ch

/-- and the sum over them. -/
def sum2 (x : (⟨4, ![B, 64, 64, 512]⟩ : Shape).Idx → EReal) (b : Fin B) (R C : Fin 2) (ch : Fin 512) : EReal :=
  ∑ dr : Fin 2, ∑ dc : Fin 2, cellSum x b (sub2 R dr) (sub2 C dc) ch

/-- The one bin of the 1 × 1 level: the maximum over all 16 cells, -/
def max1 (x : (⟨4, ![B, 64, 64, 512]⟩ : Shape).Idx → EReal) (b : Fin B) (ch : Fin 512) : EReal :=
  Finset.univ.sup fun r : Fin 4 => Finset.univ.sup fun c : Fin 4 => cellMax x b r c ch

/-- and the sum over them. -/
def sum1 (x : (⟨4, ![B, 64, 64, 512]⟩ : Shape).Idx → EReal) (b : Fin B) (ch : Fin 512) : EReal :=
  ∑ r : Fin 4, ∑ c : Fin 4, cellSum x b r c ch

/-- Maximum plus mean of a cell (256 entries), -/
def bin4 (x : (⟨4, ![B, 64, 64, 512]⟩ : Shape).Idx → EReal) (b : Fin B) (r c : Fin 4) (ch : Fin 512) : EReal :=
  cellMax x b r c ch + cellSum x b r c ch * ((1 / 256 : ℝ) : EReal)

/-- of a bin of the 2 × 2 level (1024 entries), -/
def bin2 (x : (⟨4, ![B, 64, 64, 512]⟩ : Shape).Idx → EReal) (b : Fin B) (R C : Fin 2) (ch : Fin 512) : EReal :=
  max2 x b R C ch + sum2 x b R C ch * ((1 / 1024 : ℝ) : EReal)

/-- and of the whole plane (4096 entries). -/
def bin1 (x : (⟨4, ![B, 64, 64, 512]⟩ : Shape).Idx → EReal) (b : Fin B) (ch : Fin 512) : EReal :=
  max1 x b ch + sum1 x b ch * ((1 / 4096 : ℝ) : EReal)

/-- Bin number `k` of the 21: bin 0 is the whole plane; bins 1 … 4 are the 2 × 2 level, bin 1 + 2 C + R being row bin
    R and column bin C; bins 5 … 20 are the cells, bin 5 + 4 c + r being cell (r, c). -/
def binVal (x : (⟨4, ![B, 64, 64, 512]⟩ : Shape).Idx → EReal) (b : Fin B) (k : Fin 21) (ch : Fin 512) : EReal :=
  if k.val = 0 then bin1 x b ch
  else if h : k.val < 5 then bin2 x b ⟨(k.val - 1) % 2, by omega⟩ ⟨(k.val - 1) / 2, by omega⟩ ch
  else bin4 x b ⟨(k.val - 5) % 4, by omega⟩ ⟨(k.val - 5) / 4, by omega⟩ ch

/-- The pooled array, batch entry by bin by channel. -/
def G3 (x : (⟨4, ![B, 64, 64, 512]⟩ : Shape).Idx → EReal) : (⟨3, ![B, 21, 512]⟩ : Shape).Idx → EReal :=
  fun y => binVal x (y 0) (y 1) (y 2)

theorem G3_ix3 (x : (⟨4, ![B, 64, 64, 512]⟩ : Shape).Idx → EReal) (b : Fin B) (k : Fin 21) (ch : Fin 512) :
    G3 x (ix3 b k ch) = binVal x b k ch := rfl

/-- The result: row `b` is the 21 bins' channels one after the other. -/
def G (x : (⟨4, ![32, 64, 64, 512]⟩ : Shape).Idx → EReal) : (⟨2, ![32, 10752]⟩ : Shape).Idx → EReal :=
  fun j => binVal x (j 0)
    ⟨(j 1).val / 512, by have h : (j 1).val < 10752 := (j 1).isLt; omega⟩
    ⟨(j 1).val % 512, by omega⟩

theorem binVal_zero (x : (⟨4, ![B, 64, 64, 512]⟩ : Shape).Idx → EReal) (b : Fin B) (k : Fin 21) (ch : Fin 512)
    (hk : k.val = 0) : binVal x b k ch = bin1 x b ch := by
  unfold binVal; rw [if_pos hk]

/-- Bin 1 + 2 C + R is bin (R, C) of the 2 × 2 level. -/
theorem binVal_two (x : (⟨4, ![B, 64, 64, 512]⟩ : Shape).Idx → EReal) (b : Fin B) (k : Fin 21) (ch : Fin 512)
    (R C : Fin 2) (hk : k.val = 1 + 2 * C.val + R.val) : binVal x b k ch = bin2 x b R C ch := by
  unfold binVal
  rw [if_neg (by omega), dif_pos (by omega)]
  congr 1 <;> apply Fin.ext <;> simp only <;> omega

/-- Bin 5 + 4 c + r is cell (r, c). -/
theorem binVal_four (x : (⟨4, ![B, 64, 64, 512]⟩ : Shape).Idx → EReal) (b : Fin B) (k : Fin 21) (ch : Fin 512)
    (r c : Fin 4) (hk : k.val = 5 + 4 * c.val + r.val) : binVal x b k ch = bin4 x b r c ch := by
  unfold binVal
  rw [if_neg (by omega), dif_neg (by omega)]
  congr 1 <;> apply Fin.ext <;> simp only <;> omega

/-! ## Small suprema written out, and a supremum regrouped into consecutive blocks -/

theorem sup_fin2 (f : Fin 2 → EReal) : Finset.univ.sup f = max (f 0) (f 1) := by
  have h : (Finset.univ : Finset (Fin 2)) = {0, 1} := by decide
  rw [h, Finset.sup_insert, Finset.sup_singleton]

theorem sup_fin4 (f : Fin 4 → EReal) : Finset.univ.sup f = max (f 0) (max (f 1) (max (f 2) (f 3))) := by
  have h : (Finset.univ : Finset (Fin 4)) = {0, 1, 2, 3} := by decide
  rw [h, Finset.sup_insert, Finset.sup_insert, Finset.sup_insert, Finset.sup_singleton]

/-- A supremum over `a * b` indices is the supremum, over the `a` consecutive blocks of `b` indices, of the supremum
    over each block (index `b * i + j` is position `j` of block `i`). -/
theorem sup_blocks_mul (a b : ℕ) (f : Fin (a * b) → EReal) :
    (Finset.univ.sup fun i : Fin a => Finset.univ.sup fun j : Fin b => f ⟨b * i.val + j.val, LibBlockSum.block_lt i j⟩)
      = Finset.univ.sup f := by
  apply le_antisymm
  · exact Finset.sup_le fun i _ => Finset.sup_le fun j _ => Finset.le_sup (f := f) (Finset.mem_univ _)
  · refine Finset.sup_le fun k _ => ?_
    have hb : 0 < b := by
      rcases Nat.eq_zero_or_pos b with h | h
      · have hk : k.val < a * b := k.isLt
        have h2 : a * b = 0 := by rw [h, Nat.mul_zero]
        omega
      · exact h
    have hi : k.val / b < a := Nat.div_lt_of_lt_mul (Nat.lt_of_lt_of_eq k.isLt (Nat.mul_comm a b))
    have hj : k.val % b < b := Nat.mod_lt _ hb
    have e : k = ⟨b * (⟨k.val / b, hi⟩ : Fin a).val + (⟨k.val % b, hj⟩ : Fin b).val, LibBlockSum.block_lt _ _⟩ :=
      Fin.ext (Nat.div_add_mod k.val b).symm
    rw [e]
    exact (Finset.le_sup (f := fun j : Fin b => f ⟨b * (⟨k.val / b, hi⟩ : Fin a).val + j.val, LibBlockSum.block_lt _ j⟩)
      (Finset.mem_univ (⟨k.val % b, hj⟩ : Fin b))).trans
      (Finset.le_sup (f := fun i : Fin a => Finset.univ.sup fun j : Fin b => f ⟨b * i.val + j.val, LibBlockSum.block_lt i j⟩)
        (Finset.mem_univ (⟨k.val / b, hi⟩ : Fin a)))

/-! ## The float patterns the two programs spell, as extended reals -/

theorem ofBits_neg_inf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

theorem ofBits_inv256 : Ideal.ofBits .f32 0x3B800000#32 = ((1 / 256 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_inv4096 : Ideal.ofBits .f32 0x39800000#32 = ((1 / 4096 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

/-- Dividing by 256, 1024 or 4096 is multiplying by the reciprocal, on every extended real. -/
theorem div_256 (x : EReal) : Ideal.div x (Ideal.ofBits .f32 0x43800000#32) = x * ((1 / 256 : ℝ) : EReal) := by
  rw [ofBits_256, Ideal.div_coe (by norm_num)]

theorem div_1024 (x : EReal) : Ideal.div x (Ideal.ofBits .f32 0x44800000#32) = x * ((1 / 1024 : ℝ) : EReal) := by
  rw [ofBits_1024, Ideal.div_coe (by norm_num)]

theorem div_4096 (x : EReal) : Ideal.div x (Ideal.ofBits .f32 0x45800000#32) = x * ((1 / 4096 : ℝ) : EReal) := by
  rw [ofBits_4096, Ideal.div_coe (by norm_num)]

end Cert.Pyramid

end
-- ==== Proof.KNorm.lean ====
/-
  The kernel body's arithmetic in normal form. Every grid point holds two batch rows; for each row the body loads the
  sixteen 16 × 16 × 512 windows of the 64 × 64 plane, takes of each window the maximum and the sum over its 16 rows and
  then over its 16 columns (one value per channel), and stores 21 vectors of 512 channels: per cell its maximum plus
  its sum times 1/256; per bin of the 2 × 2 level the maximum of its four cells' maxima plus the sum of their sums
  times 1/1024; for the whole plane the maximum of all sixteen maxima plus the sum of all sixteen sums times 1/4096.
  The definitions below spell those five terms once, in the order in which the body nests its operations, for any
  float instance; `ReadFacts` states what each of them is at one channel at the ideal instance.
-/
import proofs.«141487_j40166534152820_2_alg».proof.Proof.Gen.KernelIdeal
import proofs.«141487_j40166534152820_2_alg».proof.Proof.Spec
import Idealize.ShloMosaic.Lib.ValueIdx
import Idealize.ShloMosaic.Lib.Pipeline.FrameBody

noncomputable section

namespace Cert.KernelIdeal.Norm

open Idealize.ShloMosaic Idealize.ShloMosaic.ValueIdx Cert.KernelIdeal Cert.KernelIdeal.Facts₀

variable {F : FTy → Type} [FloatOps F]

/-- The maximum of a loaded window: over its 16 rows, then over its 16 columns. -/
def wmax (w : Vec F S1x16x16x512 .f32) : FVec F S512 .f32 :=
  multiReduction .maximumf [0] S512
    (multiReduction .maximumf [0] S16x512 (shapeCast S16x16x512 w shapeCasts_S1x16x16x512_S16x16x512) 0xFF800000#32
      reduces_S16x16x512_S16x512 (.inl rfl) rfl)
    0xFF800000#32 reduces_S16x512_S512 (.inl rfl) rfl

/-- The sum of a loaded window, in the same two stages. -/
def wsum (w : Vec F S1x16x16x512 .f32) : FVec F S512 .f32 :=
  multiReduction .add [0] S512
    (multiReduction .add [0] S16x512 (shapeCast S16x16x512 w shapeCasts_S1x16x16x512_S16x16x512) 0x00000000#32
      reduces_S16x16x512_S16x512 (.inl rfl) rfl)
    0x00000000#32 reduces_S16x512_S512 (.inl rfl) rfl

/-- What is stored for one cell: its maximum plus its sum times 1/256 (pattern 0x3B800000). -/
def lvl4 (m s : FVec F S512 .f32) : FVec F S1x1x512 .f32 :=
  shapeCast S1x1x512 (addf m (mulf s (broadcast S512 (Scalar.ofBits .f32 0x3B800000#32)))) shapeCasts_S512_S1x1x512

/-- What is stored for one bin of the 2 × 2 level, from its four cells (row 0 column 0, row 0 column 1, row 1 column 0,
    row 1 column 1): the maximum of the maxima plus the sum of the sums times 1/1024 (pattern 0x3A800000). -/
def lvl2 (m00 m01 m10 m11 s00 s01 s10 s11 : FVec F S512 .f32) : FVec F S1x1x512 .f32 :=
  shapeCast S1x1x512
    (addf (maximumf (maximumf m00 m01) (maximumf m10 m11))
      (mulf (addf (addf (addf s00 s01) s10) s11) (broadcast S512 (Scalar.ofBits .f32 0x3A800000#32))))
    shapeCasts_S512_S1x1x512

/-- What is stored for the whole plane, from the sixteen cells in the order cell number 4 · (row) + (column): the running
    maximum and the running sum, then the sum times 1/4096 (pattern 0x39800000). -/
def lvl1 (m0 m1 m2 m3 m4 m5 m6 m7 m8 m9 m10 m11 m12 m13 m14 m15 s0 s1 s2 s3 s4 s5 s6 s7 s8 s9 s10 s11 s12 s13 s14 s15 : FVec F S512 .f32) : FVec F S1x1x512 .f32 :=
  shapeCast S1x1x512
    (addf (maximumf (maximumf (maximumf (maximumf (maximumf (maximumf (maximumf (maximumf (maximumf (maximumf (maximumf (maximumf (maximumf (maximumf (maximumf m0 m1) m2) m3) m4) m5) m6) m7) m8) m9) m10) m11) m12) m13) m14) m15)
      (mulf (addf (addf (addf (addf (addf (addf (addf (addf (addf (addf (addf (addf (addf (addf (addf s0 s1) s2) s3) s4) s5) s6) s7) s8) s9) s10) s11) s12) s13) s14) s15) (broadcast S512 (Scalar.ofBits .f32 0x39800000#32))))
    shapeCasts_S512_S1x1x512

/-- The five terms read at one channel at the ideal instance. A window loaded from a block `xb` of two batch rows through
    the unit-stride rectangle at offsets (bl, 16 r, 16 c, 0) is cell (r, c) of batch row bl: its two-stage maximum and sum
    are the specification's `cellMax` and `cellSum` of the block; the three stored combinations read channel by channel,
    the three constants being exactly 1/256, 1/1024 and 1/4096. -/
structure ReadFacts : Prop where
  wmax_apply : ∀ (xb : Vec Ideal S2x64x64x512 .f32) (bl : Fin 2) (r c : Fin 4)
      (inb : ∀ a, (![bl.val, 16 * r.val, 16 * c.val, 0] : Fin S2x64x64x512.rank → Nat) a + S1x16x16x512.size a ≤ S2x64x64x512.size a)
      (ch : Fin 512),
      wmax (F := Ideal) (View.ld xb (Rect.unit (s := S2x64x64x512) ![bl.val, 16 * r.val, 16 * c.val, 0] S1x16x16x512.size inb)) (ix1 ch)
        = Cert.Pyramid.cellMax (B := 2) xb bl r c ch
  wsum_apply : ∀ (xb : Vec Ideal S2x64x64x512 .f32) (bl : Fin 2) (r c : Fin 4)
      (inb : ∀ a, (![bl.val, 16 * r.val, 16 * c.val, 0] : Fin S2x64x64x512.rank → Nat) a + S1x16x16x512.size a ≤ S2x64x64x512.size a)
      (ch : Fin 512),
      wsum (F := Ideal) (View.ld xb (Rect.unit (s := S2x64x64x512) ![bl.val, 16 * r.val, 16 * c.val, 0] S1x16x16x512.size inb)) (ix1 ch)
        = Cert.Pyramid.cellSum (B := 2) xb bl r c ch
  lvl4_apply : ∀ (m s : FVec Ideal S512 .f32) (ch : Fin 512),
      lvl4 (F := Ideal) m s (ix3 (0 : Fin 1) (0 : Fin 1) ch) = m (ix1 ch) + s (ix1 ch) * ((1 / 256 : ℝ) : EReal)
  lvl2_apply : ∀ (m00 m01 m10 m11 s00 s01 s10 s11 : FVec Ideal S512 .f32) (ch : Fin 512),
      lvl2 (F := Ideal) m00 m01 m10 m11 s00 s01 s10 s11 (ix3 (0 : Fin 1) (0 : Fin 1) ch)
        = max (max (m00 (ix1 ch)) (m01 (ix1 ch))) (max (m10 (ix1 ch)) (m11 (ix1 ch)))
          + (s00 (ix1 ch) + s01 (ix1 ch) + s10 (ix1 ch) + s11 (ix1 ch)) * ((1 / 1024 : ℝ) : EReal)
  lvl1_apply : ∀ (m0 m1 m2 m3 m4 m5 m6 m7 m8 m9 m10 m11 m12 m13 m14 m15 s0 s1 s2 s3 s4 s5 s6 s7 s8 s9 s10 s11 s12 s13 s14 s15 : FVec Ideal S512 .f32) (ch : Fin 512),
      lvl1 (F := Ideal) m0 m1 m2 m3 m4 m5 m6 m7 m8 m9 m10 m11 m12 m13 m14 m15 s0 s1 s2 s3 s4 s5 s6 s7 s8 s9 s10 s11 s12 s13 s14 s15 (ix3 (0 : Fin 1) (0 : Fin 1) ch)
        = max (max (max (max (max (max (max (max (max (max (max (max (max (max (max (m0 (ix1 ch)) (m1 (ix1 ch))) (m2 (ix1 ch))) (m3 (ix1 ch))) (m4 (ix1 ch))) (m5 (ix1 ch))) (m6 (ix1 ch))) (m7 (ix1 ch))) (m8 (ix1 ch))) (m9 (ix1 ch))) (m10 (ix1 ch))) (m11 (ix1 ch))) (m12 (ix1 ch))) (m13 (ix1 ch))) (m14 (ix1 ch))) (m15 (ix1 ch))
          + (s0 (ix1 ch) + s1 (ix1 ch) + s2 (ix1 ch) + s3 (ix1 ch) + s4 (ix1 ch) + s5 (ix1 ch) + s6 (ix1 ch) + s7 (ix1 ch) + s8 (ix1 ch) + s9 (ix1 ch) + s10 (ix1 ch) + s11 (ix1 ch) + s12 (ix1 ch) + s13 (ix1 ch) + s14 (ix1 ch) + s15 (ix1 ch)) * ((1 / 4096 : ℝ) : EReal)

end Cert.KernelIdeal.Norm

end
-- ==== Proof.KMath.lean ====
/-
  The five normal-form terms of the kernel body, read at one channel at the ideal instance.

  A window is loaded through the unit-stride rectangle at offsets (bl, 16 r, 16 c, 0) with sizes 1 × 16 × 16 × 512, so
  its entry at local position (0, i, j, ch) is the block's entry at (bl, 16 r + i, 16 c + j, ch). Dropping the leading
  unit axis keeps the row-major position, so the cast array reads that entry at (i, j, ch). The first reduction removes
  axis 0 of [16, 16, 512], the row offset i, and leaves [16, 512] indexed by (j, ch); the second removes axis 0 of that,
  the column offset j. At the ideal instance a one-axis maximum from −∞ is the finite supremum over the removed
  coordinate and a one-axis sum from 0 is the finite sum over it, hence the two-stage maximum is
  sup over j of sup over i and the two-stage sum is ∑ over j of ∑ over i of the block at (bl, 16 r + i, 16 c + j, ch):
  the specification's maximum and sum of cell (r, c) of batch row bl.

  The three stored combinations end in a cast [512] → [1, 1, 512], which reads channel ch at (0, 0, ch); under it the
  operations are pointwise, and the three constants 0x3B800000, 0x3A800000, 0x39800000 are exactly 1/256, 1/1024, 1/4096.
-/
import proofs.«141487_j40166534152820_2_alg».proof.Proof.KNorm
import Idealize.ShloMosaic.PureOps.Ideal.Laws
import Idealize.ShloMosaic.PureOps.Reduce
import Idealize.ShloMosaic.Lib.ValueLayout
import Idealize.ShloMosaic.Lib.Pipeline.Value

noncomputable section

open scoped BigOperators

namespace Cert.KernelIdeal.Math

open Idealize.ShloMosaic Idealize.ShloMosaic.ValueIdx Cert.KernelIdeal Cert.KernelIdeal.Facts₀ Cert.KernelIdeal.Norm

/-- A window loaded through the unit-stride rectangle at offsets (bl, 16 r, 16 c, 0) reads, at local position
    (0, i, j, ch), the block at (bl, 16 r + i, 16 c + j, ch): each coordinate is offset plus local coordinate. -/
theorem ld_window (xb : Vec Ideal S2x64x64x512 .f32) (bl : Fin 2) (r c : Fin 4)
    (inb : ∀ a, (![bl.val, 16 * r.val, 16 * c.val, 0] : Fin S2x64x64x512.rank → Nat) a + S1x16x16x512.size a ≤ S2x64x64x512.size a)
    (i j : Fin 16) (ch : Fin 512) :
    View.ld xb (Rect.unit (s := S2x64x64x512) ![bl.val, 16 * r.val, 16 * c.val, 0] S1x16x16x512.size inb) (ix4 (0 : Fin 1) i j ch)
      = xb (ix4 bl (Cert.Pyramid.at16 r i) (Cert.Pyramid.at16 c j) ch) := by
  refine congrArg xb ?_
  funext a
  apply Fin.ext
  match a with
  | ⟨0, _⟩ => show bl.val + 1 * 0 = bl.val; omega
  | ⟨1, _⟩ => show 16 * r.val + 1 * i.val = 16 * r.val + i.val; omega
  | ⟨2, _⟩ => show 16 * c.val + 1 * j.val = 16 * c.val + j.val; omega
  | ⟨3, _⟩ => show 0 + 1 * ch.val = ch.val; omega

/-- Putting coordinate j back on the removed axis 0 of a [16, 512] array: the index (j, ch). -/
theorem lift_S16x512 (ch : Fin 512) (j : Fin 16) :
    reduces_S16x512_S512.lift (ix1 ch) j = ix2 j ch := by
  funext a
  apply Fin.ext
  match a with
  | ⟨0, _⟩ => rfl
  | ⟨1, _⟩ => rfl

/-- Putting coordinate i back on the removed axis 0 of a [16, 16, 512] array: the index (i, j, ch). -/
theorem lift_S16x16x512 (j : Fin 16) (ch : Fin 512) (i : Fin 16) :
    reduces_S16x16x512_S16x512.lift (ix2 j ch) i = ix3 i j ch := by
  funext a
  apply Fin.ext
  match a with
  | ⟨0, _⟩ => rfl
  | ⟨1, _⟩ => rfl
  | ⟨2, _⟩ => rfl

/-- The maximum over axis 0 of a [16, 512] array, from −∞: the supremum of its 16 rows, channel by channel. -/
theorem max_S16x512 (v : FVec Ideal S16x512 .f32) (ch : Fin 512) :
    multiReduction (F := Ideal) .maximumf [0] S512 v 0xFF800000#32 reduces_S16x512_S512 (.inl rfl) rfl (ix1 ch)
      = Finset.univ.sup fun j : Fin 16 => v (ix2 j ch) := by
  refine (Ideal.multiReduction_maximumf_single v 0xFF800000#32 reduces_S16x512_S512 (.inl rfl) rfl (ix1 ch)).trans ?_
  rw [Ideal.ofBits_def, Cert.Pyramid.ofBits_neg_inf]
  refine (Cert.LibTiledSup.fold_max_eq_sup _ _).trans ?_
  refine Finset.sup_congr rfl fun j _ => ?_
  exact congrArg v (lift_S16x512 ch j)

/-- The maximum over axis 0 of a [16, 16, 512] array, from −∞: the supremum over the leading coordinate. -/
theorem max_S16x16x512 (v : FVec Ideal S16x16x512 .f32) (j : Fin 16) (ch : Fin 512) :
    multiReduction (F := Ideal) .maximumf [0] S16x512 v 0xFF800000#32 reduces_S16x16x512_S16x512 (.inl rfl) rfl (ix2 j ch)
      = Finset.univ.sup fun i : Fin 16 => v (ix3 i j ch) := by
  refine (Ideal.multiReduction_maximumf_single v 0xFF800000#32 reduces_S16x16x512_S16x512 (.inl rfl) rfl (ix2 j ch)).trans ?_
  rw [Ideal.ofBits_def, Cert.Pyramid.ofBits_neg_inf]
  refine (Cert.LibTiledSup.fold_max_eq_sup _ _).trans ?_
  refine Finset.sup_congr rfl fun i _ => ?_
  exact congrArg v (lift_S16x16x512 j ch i)

/-- The sum over axis 0 of a [16, 512] array: the sum of its 16 rows, channel by channel. -/
theorem sum_S16x512 (v : FVec Ideal S16x512 .f32) (ch : Fin 512) :
    multiReduction (F := Ideal) .add [0] S512 v 0x00000000#32 reduces_S16x512_S512 (.inl rfl) rfl (ix1 ch)
      = ∑ j : Fin 16, v (ix2 j ch) := by
  refine (Ideal.multiReduction_add_single v 0x00000000#32 reduces_S16x512_S512 (.inl rfl) rfl (ix1 ch)).trans ?_
  refine Finset.sum_congr rfl fun j _ => ?_
  exact congrArg v (lift_S16x512 ch j)

/-- The sum over axis 0 of a [16, 16, 512] array: the sum over the leading coordinate. -/
theorem sum_S16x16x512 (v : FVec Ideal S16x16x512 .f32) (j : Fin 16) (ch : Fin 512) :
    multiReduction (F := Ideal) .add [0] S16x512 v 0x00000000#32 reduces_S16x16x512_S16x512 (.inl rfl) rfl (ix2 j ch)
      = ∑ i : Fin 16, v (ix3 i j ch) := by
  refine (Ideal.multiReduction_add_single v 0x00000000#32 reduces_S16x16x512_S16x512 (.inl rfl) rfl (ix2 j ch)).trans ?_
  refine Finset.sum_congr rfl fun i _ => ?_
  exact congrArg v (lift_S16x16x512 j ch i)

/-- A loaded window with its leading unit axis dropped reads, at (i, j, ch), the block at (bl, 16 r + i, 16 c + j, ch). -/
theorem cast_window (xb : Vec Ideal S2x64x64x512 .f32) (bl : Fin 2) (r c : Fin 4)
    (inb : ∀ a, (![bl.val, 16 * r.val, 16 * c.val, 0] : Fin S2x64x64x512.rank → Nat) a + S1x16x16x512.size a ≤ S2x64x64x512.size a)
    (i j : Fin 16) (ch : Fin 512) :
    shapeCast S16x16x512
        (View.ld xb (Rect.unit (s := S2x64x64x512) ![bl.val, 16 * r.val, 16 * c.val, 0] S1x16x16x512.size inb))
        shapeCasts_S1x16x16x512_S16x16x512 (ix3 i j ch)
      = xb (ix4 bl (Cert.Pyramid.at16 r i) (Cert.Pyramid.at16 c j) ch) :=
  (shapeCast_1abc_abc_apply _ shapeCasts_S1x16x16x512_S16x16x512 i j ch).trans (ld_window xb bl r c inb i j ch)

/-- The two-stage maximum of the window at offsets (bl, 16 r, 16 c, 0) is the maximum of cell (r, c) of batch row bl:
    the second stage runs over the column offset j, the first over the row offset i. -/
theorem wmax_apply (xb : Vec Ideal S2x64x64x512 .f32) (bl : Fin 2) (r c : Fin 4)
    (inb : ∀ a, (![bl.val, 16 * r.val, 16 * c.val, 0] : Fin S2x64x64x512.rank → Nat) a + S1x16x16x512.size a ≤ S2x64x64x512.size a)
    (ch : Fin 512) :
    wmax (F := Ideal) (View.ld xb (Rect.unit (s := S2x64x64x512) ![bl.val, 16 * r.val, 16 * c.val, 0] S1x16x16x512.size inb)) (ix1 ch)
      = Cert.Pyramid.cellMax (B := 2) xb bl r c ch := by
  unfold wmax Cert.Pyramid.cellMax
  refine (max_S16x512 _ ch).trans ?_
  refine Finset.sup_congr rfl fun j _ => ?_
  refine (max_S16x16x512 _ j ch).trans ?_
  refine Finset.sup_congr rfl fun i _ => ?_
  exact cast_window xb bl r c inb i j ch

/-- The same for the two-stage sum. -/
theorem wsum_apply (xb : Vec Ideal S2x64x64x512 .f32) (bl : Fin 2) (r c : Fin 4)
    (inb : ∀ a, (![bl.val, 16 * r.val, 16 * c.val, 0] : Fin S2x64x64x512.rank → Nat) a + S1x16x16x512.size a ≤ S2x64x64x512.size a)
    (ch : Fin 512) :
    wsum (F := Ideal) (View.ld xb (Rect.unit (s := S2x64x64x512) ![bl.val, 16 * r.val, 16 * c.val, 0] S1x16x16x512.size inb)) (ix1 ch)
      = Cert.Pyramid.cellSum (B := 2) xb bl r c ch := by
  unfold wsum Cert.Pyramid.cellSum
  refine (sum_S16x512 _ ch).trans ?_
  refine Finset.sum_congr rfl fun j _ => ?_
  refine (sum_S16x16x512 _ j ch).trans ?_
  refine Finset.sum_congr rfl fun i _ => ?_
  exact cast_window xb bl r c inb i j ch

/-- A [512] vector cast to [1, 1, 512] reads, at (0, 0, ch), channel ch: both positions are number ch in row-major order. -/
theorem cast_S512 (v : FVec Ideal S512 .f32) (ch : Fin 512) :
    shapeCast S1x1x512 v shapeCasts_S512_S1x1x512 (ix3 (0 : Fin 1) (0 : Fin 1) ch) = v (ix1 ch) :=
  shapeCast_apply v shapeCasts_S512_S1x1x512 (ix3 (0 : Fin 1) (0 : Fin 1) ch) (ix1 ch) (by
    rw [Shape.rowMajor_val_one, Shape.rowMajor_val_three]
    show ch.val = (0 * 1 + 0) * 512 + ch.val
    omega)

/-- A cell's stored value at channel ch: maximum plus sum times 1/256. -/
theorem lvl4_apply (m s : FVec Ideal S512 .f32) (ch : Fin 512) :
    lvl4 (F := Ideal) m s (ix3 (0 : Fin 1) (0 : Fin 1) ch) = m (ix1 ch) + s (ix1 ch) * ((1 / 256 : ℝ) : EReal) := by
  unfold lvl4
  refine (cast_S512 _ ch).trans ?_
  show m (ix1 ch) + s (ix1 ch) * Ideal.ofBits .f32 0x3B800000#32 = _
  rw [Cert.Pyramid.ofBits_inv256]

/-- A 2 × 2-level bin's stored value at channel ch: the maximum of the four maxima plus the sum of the four sums times 1/1024. -/
theorem lvl2_apply (m00 m01 m10 m11 s00 s01 s10 s11 : FVec Ideal S512 .f32) (ch : Fin 512) :
    lvl2 (F := Ideal) m00 m01 m10 m11 s00 s01 s10 s11 (ix3 (0 : Fin 1) (0 : Fin 1) ch)
      = max (max (m00 (ix1 ch)) (m01 (ix1 ch))) (max (m10 (ix1 ch)) (m11 (ix1 ch)))
        + (s00 (ix1 ch) + s01 (ix1 ch) + s10 (ix1 ch) + s11 (ix1 ch)) * ((1 / 1024 : ℝ) : EReal) := by
  unfold lvl2
  refine (cast_S512 _ ch).trans ?_
  show max (max (m00 (ix1 ch)) (m01 (ix1 ch))) (max (m10 (ix1 ch)) (m11 (ix1 ch)))
        + (s00 (ix1 ch) + s01 (ix1 ch) + s10 (ix1 ch) + s11 (ix1 ch)) * Ideal.ofBits .f32 0x3A800000#32 = _
  rw [Cert.Pyramid.ofBits_inv1024]

/-- The whole plane's stored value at channel ch: the running maximum of the sixteen maxima plus the running sum of the
    sixteen sums times 1/4096. -/
theorem lvl1_apply (m0 m1 m2 m3 m4 m5 m6 m7 m8 m9 m10 m11 m12 m13 m14 m15 s0 s1 s2 s3 s4 s5 s6 s7 s8 s9 s10 s11 s12 s13 s14 s15 : FVec Ideal S512 .f32) (ch : Fin 512) :
    lvl1 (F := Ideal) m0 m1 m2 m3 m4 m5 m6 m7 m8 m9 m10 m11 m12 m13 m14 m15 s0 s1 s2 s3 s4 s5 s6 s7 s8 s9 s10 s11 s12 s13 s14 s15 (ix3 (0 : Fin 1) (0 : Fin 1) ch)
      = max (max (max (max (max (max (max (max (max (max (max (max (max (max (max (m0 (ix1 ch)) (m1 (ix1 ch))) (m2 (ix1 ch))) (m3 (ix1 ch))) (m4 (ix1 ch))) (m5 (ix1 ch))) (m6 (ix1 ch))) (m7 (ix1 ch))) (m8 (ix1 ch))) (m9 (ix1 ch))) (m10 (ix1 ch))) (m11 (ix1 ch))) (m12 (ix1 ch))) (m13 (ix1 ch))) (m14 (ix1 ch))) (m15 (ix1 ch))
        + (s0 (ix1 ch) + s1 (ix1 ch) + s2 (ix1 ch) + s3 (ix1 ch) + s4 (ix1 ch) + s5 (ix1 ch) + s6 (ix1 ch) + s7 (ix1 ch) + s8 (ix1 ch) + s9 (ix1 ch) + s10 (ix1 ch) + s11 (ix1 ch) + s12 (ix1 ch) + s13 (ix1 ch) + s14 (ix1 ch) + s15 (ix1 ch)) * ((1 / 4096 : ℝ) : EReal) := by
  unfold lvl1
  refine (cast_S512 _ ch).trans ?_
  show max (max (max (max (max (max (max (max (max (max (max (max (max (max (max (m0 (ix1 ch)) (m1 (ix1 ch))) (m2 (ix1 ch))) (m3 (ix1 ch))) (m4 (ix1 ch))) (m5 (ix1 ch))) (m6 (ix1 ch))) (m7 (ix1 ch))) (m8 (ix1 ch))) (m9 (ix1 ch))) (m10 (ix1 ch))) (m11 (ix1 ch))) (m12 (ix1 ch))) (m13 (ix1 ch))) (m14 (ix1 ch))) (m15 (ix1 ch))
        + (s0 (ix1 ch) + s1 (ix1 ch) + s2 (ix1 ch) + s3 (ix1 ch) + s4 (ix1 ch) + s5 (ix1 ch) + s6 (ix1 ch) + s7 (ix1 ch) + s8 (ix1 ch) + s9 (ix1 ch) + s10 (ix1 ch) + s11 (ix1 ch) + s12 (ix1 ch) + s13 (ix1 ch) + s14 (ix1 ch) + s15 (ix1 ch)) * Ideal.ofBits .f32 0x39800000#32 = _
  rw [Cert.Pyramid.ofBits_inv4096]

/-- The five terms of the kernel body read at one channel. -/
theorem facts : Cert.KernelIdeal.Norm.ReadFacts :=
  ⟨wmax_apply, wsum_apply, lvl4_apply, lvl2_apply, lvl1_apply⟩

end Cert.KernelIdeal.Math

end
-- ==== Proof.KBody.lean ====
/-
  What the kernel body leaves in the output block of one grid point, as the specification's pooled array of the input
  block. The output block is 2 batch rows × 21 bins × 512 channels and is written by 42 stores, one per batch row and
  bin, each through the unit-stride rectangle at offsets (bl, k, 0) of sizes 1 × 1 × 512. The stores are of three
  kinds: a bin of the 4 × 4 level is one cell's maximum plus its sum times 1/256; a bin of the 2 × 2 level combines
  four cells; the bin of the 1 × 1 level combines all sixteen. For each kind one lemma reads the stored vector at a
  channel and identifies it with the specification's bin, given what a loaded window's maximum and sum are (the
  hypothesis `H`); the theorem then goes through the 42 stores, which cover the block.
-/
import proofs.«141487_j40166534152820_2_alg».proof.Proof.Gen.KernelIdeal.Frame
import proofs.«141487_j40166534152820_2_alg».proof.Proof.KNorm
import proofs.«141487_j40166534152820_2_alg».proof.Proof.Spec
import Idealize.ShloMosaic.Lib.ValueIdx
import Idealize.ShloMosaic.Lib.Pipeline.Value

noncomputable section

open scoped BigOperators

namespace Cert.KernelIdeal.Body

open Idealize.ShloMosaic Idealize.ShloMosaic.ValueIdx
open Cert.KernelIdeal

/-! ## The rectangles, by batch row, cell and bin -/

/-- The window of cell (r, c) of batch row bl lies inside the block. -/
theorem inbW (bl : Fin 2) (r c : Fin 4) :
    ∀ a, (![bl.val, 16 * r.val, 16 * c.val, 0] : Fin S2x64x64x512.rank → Nat) a + S1x16x16x512.size a ≤ S2x64x64x512.size a := by
  intro a
  match a with
  | ⟨0, _⟩ => show bl.val + 1 ≤ 2; omega
  | ⟨1, _⟩ => show 16 * r.val + 16 ≤ 64; omega
  | ⟨2, _⟩ => show 16 * c.val + 16 ≤ 64; omega
  | ⟨3, _⟩ => show 0 + 512 ≤ 512; omega

/-- The 512 channels of bin k of batch row bl lie inside the output block. -/
theorem inbO (bl : Fin 2) (k : Fin 21) :
    ∀ a, (![bl.val, k.val, 0] : Fin S2x21x512.rank → Nat) a + S1x1x512.size a ≤ S2x21x512.size a := by
  intro a
  match a with
  | ⟨0, _⟩ => show bl.val + 1 ≤ 2; omega
  | ⟨1, _⟩ => show k.val + 1 ≤ 21; omega
  | ⟨2, _⟩ => show 0 + 512 ≤ 512; omega

/-- The loaded window of cell (r, c) of batch row bl. -/
abbrev win (xb : Vec Ideal S2x64x64x512 .f32) (bl : Fin 2) (r c : Fin 4) : Vec Ideal S1x16x16x512 .f32 :=
  View.ld xb (Rect.unit (s := S2x64x64x512) ![bl.val, 16 * r.val, 16 * c.val, 0] S1x16x16x512.size (inbW bl r c))

/-- The rectangle a store of bin k of batch row bl writes. -/
abbrev binRect (bl : Fin 2) (k : Fin 21) : Rect S2x21x512 :=
  Rect.unit (s := S2x21x512) ![bl.val, k.val, 0] S1x1x512.size (inbO bl k)

/-- A local index of such a rectangle is (0, 0, ch). -/
theorem binIdx (bl : Fin 2) (k : Fin 21) (x : (binRect bl k).shape.Idx) :
    ∃ ch : Fin 512, x = ix3 (0 : Fin 1) (0 : Fin 1) ch := by
  obtain ⟨a, b, ch, rfl⟩ : ∃ (a : Fin 1) (b : Fin 1) (ch : Fin 512), x = ix3 a b ch := ⟨x 0, x 1, x 2, eq_ix3 x⟩
  obtain rfl : a = 0 := Subsingleton.elim _ _
  obtain rfl : b = 0 := Subsingleton.elim _ _
  exact ⟨ch, rfl⟩

/-- and it sits at (bl, k, ch) of the block. -/
theorem binRect_emb (bl : Fin 2) (k : Fin 21) (ch : Fin 512) :
    (binRect bl k).emb (ix3 (0 : Fin 1) (0 : Fin 1) ch) = ix3 bl k ch := by
  funext d
  match d with
  | ⟨0, _⟩ => exact Fin.ext (by show bl.val + 1 * 0 = bl.val; omega)
  | ⟨1, _⟩ => exact Fin.ext (by show k.val + 1 * 0 = k.val; omega)
  | ⟨2, _⟩ => exact Fin.ext (by show 0 + 1 * ch.val = ch.val; omega)

/-! ## The three kinds of store -/

/-- A store of the 4 × 4 level: bin 5 + 4 c + r holds cell (r, c)'s maximum plus its mean. -/
theorem piece4 (H : Norm.ReadFacts) (xb : Vec Ideal S2x64x64x512 .f32) (bl : Fin 2) (r c : Fin 4) (k : Fin 21)
    (hk : k.val = 5 + 4 * c.val + r.val) (x : (binRect bl k).shape.Idx) :
    Norm.lvl4 (F := Ideal) (Norm.wmax (win xb bl r c)) (Norm.wsum (win xb bl r c)) x
      = Cert.Pyramid.G3 (B := 2) xb ((binRect bl k).emb x) := by
  obtain ⟨ch, rfl⟩ := binIdx bl k x
  rw [binRect_emb, H.lvl4_apply, H.wmax_apply xb bl r c (inbW bl r c) ch, H.wsum_apply xb bl r c (inbW bl r c) ch,
    Cert.Pyramid.G3_ix3, Cert.Pyramid.binVal_four _ _ _ _ r c hk]
  rfl

/-- A store of the 2 × 2 level: bin 1 + 2 C + R holds, of the four cells (2 R + dr, 2 C + dc), the maximum of the
    maxima plus the sum of the sums times 1/1024. The body adds the four sums left to right; the specification adds
    them row by row. -/
theorem piece2 (H : Norm.ReadFacts) (xb : Vec Ideal S2x64x64x512 .f32) (bl : Fin 2) (R C : Fin 2) (k : Fin 21)
    (hk : k.val = 1 + 2 * C.val + R.val) (x : (binRect bl k).shape.Idx) :
    Norm.lvl2 (F := Ideal) (Norm.wmax (win xb bl (Cert.Pyramid.sub2 R 0) (Cert.Pyramid.sub2 C 0))) (Norm.wmax (win xb bl (Cert.Pyramid.sub2 R 0) (Cert.Pyramid.sub2 C 1))) (Norm.wmax (win xb bl (Cert.Pyramid.sub2 R 1) (Cert.Pyramid.sub2 C 0))) (Norm.wmax (win xb bl (Cert.Pyramid.sub2 R 1) (Cert.Pyramid.sub2 C 1)))
        (Norm.wsum (win xb bl (Cert.Pyramid.sub2 R 0) (Cert.Pyramid.sub2 C 0))) (Norm.wsum (win xb bl (Cert.Pyramid.sub2 R 0) (Cert.Pyramid.sub2 C 1))) (Norm.wsum (win xb bl (Cert.Pyramid.sub2 R 1) (Cert.Pyramid.sub2 C 0))) (Norm.wsum (win xb bl (Cert.Pyramid.sub2 R 1) (Cert.Pyramid.sub2 C 1))) x
      = Cert.Pyramid.G3 (B := 2) xb ((binRect bl k).emb x) := by
  obtain ⟨ch, rfl⟩ := binIdx bl k x
  rw [binRect_emb, H.lvl2_apply,
    H.wmax_apply xb bl (Cert.Pyramid.sub2 R 0) (Cert.Pyramid.sub2 C 0) (inbW bl _ _) ch, H.wmax_apply xb bl (Cert.Pyramid.sub2 R 0) (Cert.Pyramid.sub2 C 1) (inbW bl _ _) ch, H.wmax_apply xb bl (Cert.Pyramid.sub2 R 1) (Cert.Pyramid.sub2 C 0) (inbW bl _ _) ch, H.wmax_apply xb bl (Cert.Pyramid.sub2 R 1) (Cert.Pyramid.sub2 C 1) (inbW bl _ _) ch,
    H.wsum_apply xb bl (Cert.Pyramid.sub2 R 0) (Cert.Pyramid.sub2 C 0) (inbW bl _ _) ch, H.wsum_apply xb bl (Cert.Pyramid.sub2 R 0) (Cert.Pyramid.sub2 C 1) (inbW bl _ _) ch, H.wsum_apply xb bl (Cert.Pyramid.sub2 R 1) (Cert.Pyramid.sub2 C 0) (inbW bl _ _) ch, H.wsum_apply xb bl (Cert.Pyramid.sub2 R 1) (Cert.Pyramid.sub2 C 1) (inbW bl _ _) ch,
    Cert.Pyramid.G3_ix3, Cert.Pyramid.binVal_two _ _ _ _ R C hk]
  simp only [Cert.Pyramid.bin2, Cert.Pyramid.max2, Cert.Pyramid.sum2, Cert.Pyramid.sup_fin2, Fin.sum_univ_two, add_assoc]

/-- The store of the 1 × 1 level: bin 0 holds the maximum of the sixteen cells' maxima plus the sum of their sums times
    1/4096. The body folds the sixteen cells in the order 4 · (row) + (column), the specification row by row: the same
    cells in the same order, bracketed differently. -/
theorem piece1 (H : Norm.ReadFacts) (xb : Vec Ideal S2x64x64x512 .f32) (bl : Fin 2) (x : (binRect bl 0).shape.Idx) :
    Norm.lvl1 (F := Ideal) (Norm.wmax (win xb bl 0 0)) (Norm.wmax (win xb bl 0 1)) (Norm.wmax (win xb bl 0 2)) (Norm.wmax (win xb bl 0 3)) (Norm.wmax (win xb bl 1 0)) (Norm.wmax (win xb bl 1 1)) (Norm.wmax (win xb bl 1 2)) (Norm.wmax (win xb bl 1 3)) (Norm.wmax (win xb bl 2 0)) (Norm.wmax (win xb bl 2 1)) (Norm.wmax (win xb bl 2 2)) (Norm.wmax (win xb bl 2 3)) (Norm.wmax (win xb bl 3 0)) (Norm.wmax (win xb bl 3 1)) (Norm.wmax (win xb bl 3 2)) (Norm.wmax (win xb bl 3 3))
        (Norm.wsum (win xb bl 0 0)) (Norm.wsum (win xb bl 0 1)) (Norm.wsum (win xb bl 0 2)) (Norm.wsum (win xb bl 0 3)) (Norm.wsum (win xb bl 1 0)) (Norm.wsum (win xb bl 1 1)) (Norm.wsum (win xb bl 1 2)) (Norm.wsum (win xb bl 1 3)) (Norm.wsum (win xb bl 2 0)) (Norm.wsum (win xb bl 2 1)) (Norm.wsum (win xb bl 2 2)) (Norm.wsum (win xb bl 2 3)) (Norm.wsum (win xb bl 3 0)) (Norm.wsum (win xb bl 3 1)) (Norm.wsum (win xb bl 3 2)) (Norm.wsum (win xb bl 3 3)) x
      = Cert.Pyramid.G3 (B := 2) xb ((binRect bl 0).emb x) := by
  obtain ⟨ch, rfl⟩ := binIdx bl 0 x
  rw [binRect_emb, H.lvl1_apply,
    H.wmax_apply xb bl 0 0 (inbW bl 0 0) ch, H.wmax_apply xb bl 0 1 (inbW bl 0 1) ch, H.wmax_apply xb bl 0 2 (inbW bl 0 2) ch, H.wmax_apply xb bl 0 3 (inbW bl 0 3) ch, H.wmax_apply xb bl 1 0 (inbW bl 1 0) ch, H.wmax_apply xb bl 1 1 (inbW bl 1 1) ch, H.wmax_apply xb bl 1 2 (inbW bl 1 2) ch, H.wmax_apply xb bl 1 3 (inbW bl 1 3) ch, H.wmax_apply xb bl 2 0 (inbW bl 2 0) ch, H.wmax_apply xb bl 2 1 (inbW bl 2 1) ch, H.wmax_apply xb bl 2 2 (inbW bl 2 2) ch, H.wmax_apply xb bl 2 3 (inbW bl 2 3) ch, H.wmax_apply xb bl 3 0 (inbW bl 3 0) ch, H.wmax_apply xb bl 3 1 (inbW bl 3 1) ch, H.wmax_apply xb bl 3 2 (inbW bl 3 2) ch, H.wmax_apply xb bl 3 3 (inbW bl 3 3) ch,
    H.wsum_apply xb bl 0 0 (inbW bl 0 0) ch, H.wsum_apply xb bl 0 1 (inbW bl 0 1) ch, H.wsum_apply xb bl 0 2 (inbW bl 0 2) ch, H.wsum_apply xb bl 0 3 (inbW bl 0 3) ch, H.wsum_apply xb bl 1 0 (inbW bl 1 0) ch, H.wsum_apply xb bl 1 1 (inbW bl 1 1) ch, H.wsum_apply xb bl 1 2 (inbW bl 1 2) ch, H.wsum_apply xb bl 1 3 (inbW bl 1 3) ch, H.wsum_apply xb bl 2 0 (inbW bl 2 0) ch, H.wsum_apply xb bl 2 1 (inbW bl 2 1) ch, H.wsum_apply xb bl 2 2 (inbW bl 2 2) ch, H.wsum_apply xb bl 2 3 (inbW bl 2 3) ch, H.wsum_apply xb bl 3 0 (inbW bl 3 0) ch, H.wsum_apply xb bl 3 1 (inbW bl 3 1) ch, H.wsum_apply xb bl 3 2 (inbW bl 3 2) ch, H.wsum_apply xb bl 3 3 (inbW bl 3 3) ch,
    Cert.Pyramid.G3_ix3, Cert.Pyramid.binVal_zero _ _ _ _ rfl]
  simp only [Cert.Pyramid.bin1, Cert.Pyramid.max1, Cert.Pyramid.sum1, Cert.Pyramid.sup_fin4, Fin.sum_univ_four, max_assoc, add_assoc]

/-! ## The output block -/

/-- What the body leaves in the output block is the pooled array of the input block: each of the 42 stores writes one
    bin of one batch row, the 42 rectangles cover the block, and every store's payload is the specification's bin
    read through the store's rectangle. -/
theorem out_eq (H : Cert.KernelIdeal.Norm.ReadFacts) (xb : Vec Ideal S2x64x64x512 .f32) :
    Gen.out0_1 (F := Ideal) xb = Cert.Pyramid.G3 (B := 2) xb := by
  funext y
  unfold Gen.out0_1
  refine View.canon_apply_of_pieces (Val := Elt Ideal) (S := S2x21x512) (e := .f32) (Cert.Pyramid.G3 (B := 2) xb) _ ?_ y
    (Gen.cover0_1 _ _ _ _ _ _ _ _ _ _ _ _ _ _ _ _ _ _ _ _ _ _ _ _ _ _ _ _ _ _ _ _ _ _ _ _ _ _ _ _ _ _ y)
  intro p hp
  -- batch row 1, bin 0
  rcases List.mem_cons.mp hp with rfl | hp
  · exact fun x => piece1 H xb 1 x
  -- batch row 1, bin 4
  rcases List.mem_cons.mp hp with rfl | hp
  · exact fun x => piece2 H xb 1 1 1 4 rfl x
  -- batch row 1, bin 3
  rcases List.mem_cons.mp hp with rfl | hp
  · exact fun x => piece2 H xb 1 0 1 3 rfl x
  -- batch row 1, bin 2
  rcases List.mem_cons.mp hp with rfl | hp
  · exact fun x => piece2 H xb 1 1 0 2 rfl x
  -- batch row 1, bin 1
  rcases List.mem_cons.mp hp with rfl | hp
  · exact fun x => piece2 H xb 1 0 0 1 rfl x
  -- batch row 1, bin 20
  rcases List.mem_cons.mp hp with rfl | hp
  · exact fun x => piece4 H xb 1 3 3 20 rfl x
  -- batch row 1, bin 19
  rcases List.mem_cons.mp hp with rfl | hp
  · exact fun x => piece4 H xb 1 2 3 19 rfl x
  -- batch row 1, bin 18
  rcases List.mem_cons.mp hp with rfl | hp
  · exact fun x => piece4 H xb 1 1 3 18 rfl x
  -- batch row 1, bin 17
  rcases List.mem_cons.mp hp with rfl | hp
  · exact fun x => piece4 H xb 1 0 3 17 rfl x
  -- batch row 1, bin 16
  rcases List.mem_cons.mp hp with rfl | hp
  · exact fun x => piece4 H xb 1 3 2 16 rfl x
  -- batch row 1, bin 15
  rcases List.mem_cons.mp hp with rfl | hp
  · exact fun x => piece4 H xb 1 2 2 15 rfl x
  -- batch row 1, bin 14
  rcases List.mem_cons.mp hp with rfl | hp
  · exact fun x => piece4 H xb 1 1 2 14 rfl x
  -- batch row 1, bin 13
  rcases List.mem_cons.mp hp with rfl | hp
  · exact fun x => piece4 H xb 1 0 2 13 rfl x
  -- batch row 1, bin 12
  rcases List.mem_cons.mp hp with rfl | hp
  · exact fun x => piece4 H xb 1 3 1 12 rfl x
  -- batch row 1, bin 11
  rcases List.mem_cons.mp hp with rfl | hp
  · exact fun x => piece4 H xb 1 2 1 11 rfl x
  -- batch row 1, bin 10
  rcases List.mem_cons.mp hp with rfl | hp
  · exact fun x => piece4 H xb 1 1 1 10 rfl x
  -- batch row 1, bin 9
  rcases List.mem_cons.mp hp with rfl | hp
  · exact fun x => piece4 H xb 1 0 1 9 rfl x
  -- batch row 1, bin 8
  rcases List.mem_cons.mp hp with rfl | hp
  · exact fun x => piece4 H xb 1 3 0 8 rfl x
  -- batch row 1, bin 7
  rcases List.mem_cons.mp hp with rfl | hp
  · exact fun x => piece4 H xb 1 2 0 7 rfl x
  -- batch row 1, bin 6
  rcases List.mem_cons.mp hp with rfl | hp
  · exact fun x => piece4 H xb 1 1 0 6 rfl x
  -- batch row 1, bin 5
  rcases List.mem_cons.mp hp with rfl | hp
  · exact fun x => piece4 H xb 1 0 0 5 rfl x
  -- batch row 0, bin 0
  rcases List.mem_cons.mp hp with rfl | hp
  · exact fun x => piece1 H xb 0 x
  -- batch row 0, bin 4
  rcases List.mem_cons.mp hp with rfl | hp
  · exact fun x => piece2 H xb 0 1 1 4 rfl x
  -- batch row 0, bin 3
  rcases List.mem_cons.mp hp with rfl | hp
  · exact fun x => piece2 H xb 0 0 1 3 rfl x
  -- batch row 0, bin 2
  rcases List.mem_cons.mp hp with rfl | hp
  · exact fun x => piece2 H xb 0 1 0 2 rfl x
  -- batch row 0, bin 1
  rcases List.mem_cons.mp hp with rfl | hp
  · exact fun x => piece2 H xb 0 0 0 1 rfl x
  -- batch row 0, bin 20
  rcases List.mem_cons.mp hp with rfl | hp
  · exact fun x => piece4 H xb 0 3 3 20 rfl x
  -- batch row 0, bin 19
  rcases List.mem_cons.mp hp with rfl | hp
  · exact fun x => piece4 H xb 0 2 3 19 rfl x
  -- batch row 0, bin 18
  rcases List.mem_cons.mp hp with rfl | hp
  · exact fun x => piece4 H xb 0 1 3 18 rfl x
  -- batch row 0, bin 17
  rcases List.mem_cons.mp hp with rfl | hp
  · exact fun x => piece4 H xb 0 0 3 17 rfl x
  -- batch row 0, bin 16
  rcases List.mem_cons.mp hp with rfl | hp
  · exact fun x => piece4 H xb 0 3 2 16 rfl x
  -- batch row 0, bin 15
  rcases List.mem_cons.mp hp with rfl | hp
  · exact fun x => piece4 H xb 0 2 2 15 rfl x
  -- batch row 0, bin 14
  rcases List.mem_cons.mp hp with rfl | hp
  · exact fun x => piece4 H xb 0 1 2 14 rfl x
  -- batch row 0, bin 13
  rcases List.mem_cons.mp hp with rfl | hp
  · exact fun x => piece4 H xb 0 0 2 13 rfl x
  -- batch row 0, bin 12
  rcases List.mem_cons.mp hp with rfl | hp
  · exact fun x => piece4 H xb 0 3 1 12 rfl x
  -- batch row 0, bin 11
  rcases List.mem_cons.mp hp with rfl | hp
  · exact fun x => piece4 H xb 0 2 1 11 rfl x
  -- batch row 0, bin 10
  rcases List.mem_cons.mp hp with rfl | hp
  · exact fun x => piece4 H xb 0 1 1 10 rfl x
  -- batch row 0, bin 9
  rcases List.mem_cons.mp hp with rfl | hp
  · exact fun x => piece4 H xb 0 0 1 9 rfl x
  -- batch row 0, bin 8
  rcases List.mem_cons.mp hp with rfl | hp
  · exact fun x => piece4 H xb 0 3 0 8 rfl x
  -- batch row 0, bin 7
  rcases List.mem_cons.mp hp with rfl | hp
  · exact fun x => piece4 H xb 0 2 0 7 rfl x
  -- batch row 0, bin 6
  rcases List.mem_cons.mp hp with rfl | hp
  · exact fun x => piece4 H xb 0 1 0 6 rfl x
  -- batch row 0, bin 5
  rcases List.mem_cons.mp hp with rfl | hp
  · exact fun x => piece4 H xb 0 0 0 5 rfl x
  exact absurd hp List.not_mem_nil

end Cert.KernelIdeal.Body

end
-- ==== Proof.KLaunch.lean ====
/-
  From what each grid point writes back to the result of the kernel program.

  The program is one pipelined region over 16 grid points followed by one reshape. Point `t` stages the two batch rows
  `2 t`, `2 t + 1` of the argument x[32, 64, 64, 512], and writes back the block of the same two rows of the pooled array
  p[32, 21, 512]. Given that the body turns a block of two batch rows into its pooled block (the hypothesis `hbody`), this
  module shows that the program ends with its result equal to `Cert.Pyramid.G` of the argument:

  * a bin of a batch row reads that row's plane only, so the pooled block of the staged block is the block of the pooled
    array of the whole argument (a block's coordinate in the array is block index × block size + the coordinate inside it);
  * the 16 blocks tile the pooled array along the batch axis (row `b` lies in the block of point `b / 2`), so after the
    region the pooled array is the pooling of the whole argument;
  * the reshape [32, 21, 512] → [32, 10752] keeps row-major positions: entry `(b, q)` of the result is entry
    `(b, q / 512, q % 512)` of the pooled array, which is how `Cert.Pyramid.G` is defined;
  * the argument's array is staged and never written back, so it ends as it started.
-/
import proofs.«141487_j40166534152820_2_alg».proof.Proof.Gen.KernelIdeal.Frame
import proofs.«141487_j40166534152820_2_alg».proof.Proof.Spec
import Idealize.ShloMosaic.Lib.ValueIdx
import Idealize.ShloMosaic.Lib.Pipeline.Value
import Idealize.ShloMosaic.Lib.StableHlo.Run

noncomputable section

open Idealize.ShloMosaic Idealize.ShloMosaic.ValueIdx Idealize.ShloMosaic.TcCoe Idealize.SL.Sem
open Idealize.ShloMosaic.Pipeline (Dat)

namespace Cert.KernelIdeal.Launch

open Cert.KernelIdeal Cert.KernelIdeal.Gen Cert.Pyramid

section Blocks

variable (m : (ℓ : Loc nD τ sig) → Buf (Elt Ideal) ℓ)

/-! ## A bin depends on one batch row only -/

/-- A bin of batch row `b` of one array is the bin of batch row `b'` of another as soon as the two planes agree. -/
theorem binVal_of_plane {B B' : ℕ} (xb : (⟨4, ![B, 64, 64, 512]⟩ : Shape).Idx → EReal)
    (X : (⟨4, ![B', 64, 64, 512]⟩ : Shape).Idx → EReal) (b : Fin B) (b' : Fin B')
    (h : ∀ (r c : Fin 64) (ch : Fin 512), xb (ix4 b r c ch) = X (ix4 b' r c ch)) (k : Fin 21) (ch : Fin 512) :
    binVal xb b k ch = binVal X b' k ch := by
  unfold binVal bin1 bin2 bin4 max1 sum1 max2 sum2 cellMax cellSum
  simp only [h]

/-- The pooled array of a block `xb` holding the two batch rows `2 t`, `2 t + 1` of `X` is the pooled array of `X`
    at those rows. -/
theorem G3_of_block (t : ℕ) (ht : t < 16) (xb : (⟨4, ![2, 64, 64, 512]⟩ : Shape).Idx → EReal)
    (X : (⟨4, ![32, 64, 64, 512]⟩ : Shape).Idx → EReal)
    (h : ∀ (bl : Fin 2) (r c : Fin 64) (ch : Fin 512),
      xb (ix4 bl r c ch) = X (ix4 (⟨2 * t + bl.val, by omega⟩ : Fin 32) r c ch))
    (y : (⟨3, ![2, 21, 512]⟩ : Shape).Idx) :
    G3 (B := 2) xb y = G3 (B := 32) X
      (ix3 (⟨2 * t + (y 0).val, by have : (y 0).val < 2 := (y 0).isLt; omega⟩ : Fin 32) (y 1) (y 2)) :=
  binVal_of_plane xb X (y 0) _ (h (y 0)) (y 1) (y 2)

/-! ## The blocks of the two windows -/

/-- The printed index maps, decided over the grid: point `t` takes block `t` along the batch axis of both windows
    and block 0 along every other axis. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

theorem point_lt (t : Fin cfg0.N) : t.val < 16 := by
  have hN : cfg0.N = 16 := N_0
  have := t.isLt
  omega

/-- Block `t` of the argument read at (bl, r, c, ch) is the argument at batch row `2 t + bl`. -/
theorem iblk_apply (c : Dev nD) (t : Fin cfg0.N) (bl : Fin 2) (r c' : Fin 64) (ch : Fin 512) :
    (iblk m c 0 t : (⟨4, ![2, 64, 64, 512]⟩ : Shape).Idx → EReal) (ix4 bl r c' ch)
      = (V m c main_arg0 : (⟨4, ![32, 64, 64, 512]⟩ : Shape).Idx → EReal)
          (ix4 (⟨2 * t.val + bl.val, by have := point_lt t; omega⟩ : Fin 32) r c' ch) := by
  obtain ⟨e0, e1, e2, e3, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 4) * 2 + 1 * bl.val = 2 * t.val + bl.val; omega
  | ⟨1, _⟩ => show win0_0.index t (1 : Fin 4) * 64 + 1 * r.val = r.val; omega
  | ⟨2, _⟩ => show win0_0.index t (2 : Fin 4) * 64 + 1 * c'.val = c'.val; omega
  | ⟨3, _⟩ => show win0_0.index t (3 : Fin 4) * 512 + 1 * ch.val = ch.val; omega

/-! ## What the region leaves in the pooled array -/

/-- What point `t` writes back is block `t` of the pooled array of the whole argument. -/
theorem flushed_eq (hbody : ∀ xb : Vec Ideal S2x64x64x512 .f32, Gen.out0_1 (F := Ideal) xb = Cert.Pyramid.G3 (B := 2) xb)
    (c : Dev nD) (t : Fin cfg0.N) :
    (dats m 0 c).flushed 1 t
      = ((cfg0.win 1).blk t).view.read (Elt Ideal) (G3 (B := 32) (V m c main_arg0)) := by
  show (cfg0.win 1).cut (grid0.coords t) ((dats m 0 c).after 1 t) = _
  rw [after0_1, hbody]
  obtain ⟨-, -, -, -, e4, e5, e6⟩ := idx_facts t
  funext y
  show G3 (B := 2) (iblk m c 0 t) y = G3 (B := 32) (V m c main_arg0) (((cfg0.win 1).blk t).view.emb y)
  refine (G3_of_block t.val (point_lt t) (iblk m c 0 t) (V m c main_arg0) (iblk_apply m c t) y).trans ?_
  refine congrArg (G3 (B := 32) (V m c main_arg0)) (funext fun a => Fin.ext ?_)
  match a with
  | ⟨0, _⟩ => show 2 * t.val + (y 0).val = win0_1.index t (0 : Fin 3) * 2 + 1 * (y 0).val; omega
  | ⟨1, _⟩ => show (y 1).val = win0_1.index t (1 : Fin 3) * 21 + 1 * (y 1).val; omega
  | ⟨2, _⟩ => show (y 2).val = win0_1.index t (2 : Fin 3) * 512 + 1 * (y 2).val; omega

/-- An index of the pooled array is in point `t`'s block iff each coordinate is in the block's range on its axis. -/
theorem mem_blk (t : Fin cfg0.N) (i : S32x21x512.Idx) :
    i ∈ ((cfg0.win 1).blk t).view.set ↔ ∀ a : Fin 3, win0_1.index t a * S2x21x512.size a ≤ (i a).val ∧ (i a).val < win0_1.index t a * S2x21x512.size a + S2x21x512.size a := by
  show i ∈ ((View.whole main_v0).slice (win0_1.rect t)).set ↔ _
  rw [View.set_slice_whole, Rect.mem_set_unit]
  exact Iff.rfl

/-- Batch row `b` is covered by point `b / 2`. -/
theorem cover (i : S32x21x512.Idx) :
    ∃ t : Fin cfg0.N, (cfg0.win 1).flush t = true ∧ i ∈ ((cfg0.win 1).blk t).view.set := by
  have hN : cfg0.N = 16 := N_0
  have hi0 : (i 0).val < 32 := (i 0).isLt
  have hi1 : (i 1).val < 21 := (i 1).isLt
  have hi2 : (i 2).val < 512 := (i 2).isLt
  let t : Fin cfg0.N := ⟨(i 0).val / 2, by rw [hN]; omega⟩
  have ht : t.val = (i 0).val / 2 := rfl
  obtain ⟨-, -, -, -, e4, e5, e6⟩ := idx_facts t
  refine ⟨t, flush0_1 t, ?_⟩
  rw [mem_blk]
  intro a
  match a with
  | ⟨0, _⟩ => show win0_1.index t (0 : Fin 3) * 2 ≤ (i 0).val ∧ (i 0).val < win0_1.index t (0 : Fin 3) * 2 + 2; omega
  | ⟨1, _⟩ => show win0_1.index t (1 : Fin 3) * 21 ≤ (i 1).val ∧ (i 1).val < win0_1.index t (1 : Fin 3) * 21 + 21; omega
  | ⟨2, _⟩ => show win0_1.index t (2 : Fin 3) * 512 ≤ (i 2).val ∧ (i 2).val < win0_1.index t (2 : Fin 3) * 512 + 512; omega

/-- After the region the pooled array holds the pooling of the whole argument. -/
theorem final (hbody : ∀ xb : Vec Ideal S2x64x64x512 .f32, Gen.out0_1 (F := Ideal) xb = Cert.Pyramid.G3 (B := 2) xb)
    (c : Dev nD) : (dats m 0 c).arrAt 1 cfg0.N = G3 (B := 32) (V m c main_arg0) :=
  (dats m 0 c).arrAt_eq_of_cover 1 (G3 (B := 32) (V m c main_arg0)) (fun t _ => flushed_eq m hbody c t) cover

/-! ## The reshape after the region -/

/-- The last line of the program lays the 21 bins' channels of each batch row one after the other: position
    `512 k + ch` of row `b` is bin `k`, channel `ch`. -/
theorem tail_eq (hbody : ∀ xb : Vec Ideal S2x64x64x512 .f32, Gen.out0_1 (F := Ideal) xb = Cert.Pyramid.G3 (B := 2) xb)
    (c : Dev nD) :
    Pipeline.afterTail₀ cfgs (dats m) 0 (V0 m) [hostOps1] c main_v1 = G (m ((c.tc : Thread nD τ).loc main_arg0)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = G3 (B := 32) (m ((c.tc : Thread nD τ).loc main_arg0)) :=
    (Pipeline.withArrays_arr spec0 launch0.win.arr_inj c _ _ 1).trans ((final m hbody c).trans (by rw [V_main_arg0]))
  funext j
  show shapeCast S32x10752 (Pipeline.withArrays (cfgs 0).spec c (V0 m c) (fun w => (dats m 0 c).arrAt w (cfgs 0).N)
    (Proc.devRef .tc main_v0)) shapeCasts_S32x21x512_S32x10752 j = _
  rw [hw]
  have hj0 : (j 0).val < 32 := (j 0).isLt
  have hj1 : (j 1).val < 10752 := (j 1).isLt
  refine (shapeCast_apply (G3 (B := 32) (m ((c.tc : Thread nD τ).loc main_arg0))) shapeCasts_S32x21x512_S32x10752 j
    (ix3 (j 0) (⟨(j 1).val / 512, by omega⟩ : Fin 21) (⟨(j 1).val % 512, by omega⟩ : Fin 512)) ?_).trans ?_
  · rw [Shape.rowMajor_val_three, Shape.rowMajor_val_two]
    show ((j 0).val * 21 + (j 1).val / 512) * 512 + (j 1).val % 512 = (j 0).val * 10752 + (j 1).val
    omega
  · rfl

end Blocks

/-! ## The run -/

/-- Every weakly fair execution of the program terminates with the result array at `Cert.Pyramid.G` of the argument
    and the argument unchanged: the generated frame run, its post read at the result (the reshape of the pooled array
    the region leaves) and at the argument (an input window's array keeps its contents). -/
theorem run (hbody : ∀ xb : Vec Ideal S2x64x64x512 .f32, Gen.out0_1 (F := Ideal) xb = Cert.Pyramid.G3 (B := 2) xb)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = Cert.Pyramid.G (m ((c.tc : Thread nD τ).loc main_arg0))
      ∧ r.2.mem ((c.tc : Thread nD τ).loc main_arg0) = m ((c.tc : Thread nD τ).loc main_arg0)) :=
  (θ_run defs _ _).mono (fun r h c =>
      ⟨((h c).2 main_v1 (Pipeline.mem_restRefs_of main_v1 (by decide) (by decide))).trans (tail_eq m hbody c),
        ((h c).1 0).trans (((dats m 0 c).arrAt_in 0 rfl _).trans ((A_eq m c 0).trans (V_main_arg0 m c)))⟩)
    (run_main m ρ)

end Cert.KernelIdeal.Launch

end
-- ==== Proof.RReduce.lean ====
/-
  The reference's six reductions over two axes, each read at an index.

  The reference reshapes x[b, h, w, ch] (h, w < 64) to y[b, R, a, C, a', ch] with h = s·R + a and w = s·C + a'
  (s = 16, 32, 64: same row-major position), and then reduces y over the two axes a and a', once with maximum
  from -∞ and once with addition from 0. A reduction's value at a result index (b, R, C, ch) is a fold over the FIBRE
  of that index: the rank-6 indices whose four kept coordinates are (b, R, C, ch). The fibre is the image of the
  injective map (a, a') ↦ (b, R, a, C, a', ch), so the fold is a fold over pairs (a, a'), that is a double sum or a
  double supremum; reading y at (b, R, a, C, a', ch) gives x at (b, s·R + a, s·C + a', ch).
-/
import Idealize.ShloMosaic.PureOps.Reduce
import Idealize.ShloMosaic.PureOps.Ideal.Laws
import Idealize.ShloMosaic.Lib.ValueIdx
import Idealize.ShloMosaic.Lib.ValueIdxRank6
import Idealize.ShloMosaic.Lib.IdealHost
import Idealize.ShloMosaic.Lib.Pipeline.Value
import proofs.«141487_j40166534152820_2_alg».proof.Proof.Gen.ReferenceIdeal
import proofs.«141487_j40166534152820_2_alg».proof.Proof.RefRead
import proofs.«141487_j40166534152820_2_alg».proof.Proof.Spec
import proofs.«141487_j40166534152820_2_alg».proof.Proof.LibTiledSup

noncomputable section

open scoped BigOperators

namespace Cert.ReferenceIdeal.Reduce

open Idealize.ShloMosaic Idealize.ShloMosaic.ValueIdx
open Cert.ReferenceIdeal Cert.ReferenceIdeal.Gen Cert.Pyramid

/-! ## The fibre of a result index under a reduction over axes 2 and 4 of a rank-6 shape -/

section Fibre

variable {n0 p s q s' n5 : ℕ}

/-- The four kept coordinates of a rank-6 index, read off the dropped index. -/
theorem drop_val (h : (⟨6, ![n0, p, s, q, s', n5]⟩ : Shape).ReducesTo [2, 4] ⟨4, ![n0, p, q, n5]⟩)
    (i : (⟨6, ![n0, p, s, q, s', n5]⟩ : Shape).Idx) :
    (h.drop i 0).val = (i 0).val ∧ (h.drop i 1).val = (i 1).val ∧ (h.drop i 2).val = (i 3).val
      ∧ (h.drop i 3).val = (i 5).val :=
  ⟨rfl, rfl, rfl, rfl⟩

/-- Dropping axes 2 and 4 of (b, R, a, C, a', ch) leaves (b, R, C, ch). -/
theorem drop_ix6 (h : (⟨6, ![n0, p, s, q, s', n5]⟩ : Shape).ReducesTo [2, 4] ⟨4, ![n0, p, q, n5]⟩)
    (b : Fin n0) (R : Fin p) (a : Fin s) (C : Fin q) (a' : Fin s') (ch : Fin n5) :
    h.drop (ix6 b R a C a' ch) = ix4 b R C ch := by
  funext c
  match c with
  | ⟨0, _⟩ => rfl
  | ⟨1, _⟩ => rfl
  | ⟨2, _⟩ => rfl
  | ⟨3, _⟩ => rfl

/-- An index that drops to (b, R, C, ch) is (b, R, a, C, a', ch) with its own coordinates a, a' on axes 2 and 4. -/
theorem eq_ix6_of_drop (h : (⟨6, ![n0, p, s, q, s', n5]⟩ : Shape).ReducesTo [2, 4] ⟨4, ![n0, p, q, n5]⟩)
    (i : (⟨6, ![n0, p, s, q, s', n5]⟩ : Shape).Idx) (b : Fin n0) (R : Fin p) (C : Fin q) (ch : Fin n5)
    (hi : h.drop i = ix4 b R C ch) : ix6 b R (i 2) C (i 4) ch = i := by
  obtain ⟨e0, e1, e2, e3⟩ := drop_val h i
  have h0 : (i 0).val = b.val := by rw [← e0, hi]; rfl
  have h1 : (i 1).val = R.val := by rw [← e1, hi]; rfl
  have h3 : (i 3).val = C.val := by rw [← e2, hi]; rfl
  have h5 : (i 5).val = ch.val := by rw [← e3, hi]; rfl
  funext c
  match c with
  | ⟨0, _⟩ => exact Fin.ext h0.symm
  | ⟨1, _⟩ => exact Fin.ext h1.symm
  | ⟨2, _⟩ => rfl
  | ⟨3, _⟩ => exact Fin.ext h3.symm
  | ⟨4, _⟩ => rfl
  | ⟨5, _⟩ => exact Fin.ext h5.symm

/-- The map (a, a') ↦ (b, R, a, C, a', ch) is injective. -/
theorem ix6_pair_injective (b : Fin n0) (R : Fin p) (C : Fin q) (ch : Fin n5) :
    Function.Injective fun a : Fin s × Fin s' => ix6 b R a.1 C a.2 ch := by
  intro a a' e
  exact Prod.ext (congrFun e (2 : Fin 6)) (congrFun e (4 : Fin 6))

/-- The fibre of (b, R, C, ch) is the image of that map. -/
theorem fibre_eq_image (h : (⟨6, ![n0, p, s, q, s', n5]⟩ : Shape).ReducesTo [2, 4] ⟨4, ![n0, p, q, n5]⟩)
    (b : Fin n0) (R : Fin p) (C : Fin q) (ch : Fin n5) :
    (Finset.univ.filter fun i => h.drop i = ix4 b R C ch)
      = (Finset.univ : Finset (Fin s × Fin s')).image fun a => ix6 b R a.1 C a.2 ch := by
  ext i
  simp only [Finset.mem_filter, Finset.mem_univ, true_and, Finset.mem_image]
  constructor
  · intro hi
    exact ⟨(i 2, i 4), eq_ix6_of_drop h i b R C ch hi⟩
  · rintro ⟨a, rfl⟩
    exact drop_ix6 h b R a.1 C a.2 ch

/-- A sum over the fibre is a double sum over the two reduced coordinates. -/
theorem sum_fibre (h : (⟨6, ![n0, p, s, q, s', n5]⟩ : Shape).ReducesTo [2, 4] ⟨4, ![n0, p, q, n5]⟩)
    (y : (⟨6, ![n0, p, s, q, s', n5]⟩ : Shape).Idx → EReal) (b : Fin n0) (R : Fin p) (C : Fin q) (ch : Fin n5) :
    ∑ i ∈ Finset.univ.filter (fun i => h.drop i = ix4 b R C ch), y i
      = ∑ a : Fin s, ∑ a' : Fin s', y (ix6 b R a C a' ch) := by
  rw [fibre_eq_image h b R C ch, Finset.sum_image fun a _ a' _ e => ix6_pair_injective b R C ch e,
    Fintype.sum_prod_type]

/-- A fold of max from the least element over the fibre is a double supremum over the two reduced coordinates. -/
theorem fold_max_fibre (h : (⟨6, ![n0, p, s, q, s', n5]⟩ : Shape).ReducesTo [2, 4] ⟨4, ![n0, p, q, n5]⟩)
    (y : (⟨6, ![n0, p, s, q, s', n5]⟩ : Shape).Idx → EReal) (b : Fin n0) (R : Fin p) (C : Fin q) (ch : Fin n5) :
    (Finset.univ.filter fun i => h.drop i = ix4 b R C ch).fold max ⊥ y
      = Finset.univ.sup fun a : Fin s => Finset.univ.sup fun a' : Fin s' => y (ix6 b R a C a' ch) := by
  rw [fibre_eq_image h b R C ch, Finset.fold_image fun a _ a' _ e => ix6_pair_injective b R C ch e,
    Cert.LibTiledSup.fold_max_eq_sup, ← Finset.univ_product_univ, Finset.sup_product_left]
  rfl

end Fibre

/-! ## The 4 × 4 level: cells of 16 × 16 -/

/-- The reshaped array at (b, R, a, C, a', ch) is x at (b, 16·R + a, 16·C + a', ch): the two row-major positions agree. -/
theorem val_main_v16_apply (x0 : (⟨S32x64x64x512, .f32⟩ : BufTy).Contents (Elt Ideal)) (b : Fin 32) (r c : Fin 4) (ch : Fin 512)
    (a a' : Fin 16) :
    ReadP.val_main_v16 (F := Ideal) x0 (ix6 b r a c a' ch) = x0 (ix4 b (at16 r a) (at16 c a') ch) := by
  unfold ReadP.val_main_v16
  exact shapeCast_apply x0 shapeCasts_S32x64x64x512_S32x4x16x4x16x512 (ix6 b r a c a' ch) (ix4 b (at16 r a) (at16 c a') ch)
    (by
      rewrite [Shape.rowMajor_val_four, Shape.rowMajor_val_six]
      show ((b.val * 64 + (16 * r.val + a.val)) * 64 + (16 * c.val + a'.val)) * 512 + ch.val
        = ((((b.val * 4 + r.val) * 16 + a.val) * 4 + c.val) * 16 + a'.val) * 512 + ch.val
      omega)

/-- The maximum from -∞ over axes 2 and 4: the supremum over the 16 × 16 entries of the bin. -/
theorem max4 (x0 : (⟨S32x64x64x512, .f32⟩ : BufTy).Contents (Elt Ideal)) (b : Fin 32) (r c : Fin 4) (ch : Fin 512) :
    ReadP.val_main_v17 (F := Ideal) x0 (ix4 b r c ch)
      = Finset.univ.sup fun i : Fin 16 => Finset.univ.sup fun j : Fin 16 => x0 (ix4 b (at16 r i) (at16 c j) ch) := by
  unfold ReadP.val_main_v17
  refine (Host.reduce_eq_fold _ _ _ _ _ _).trans ?_
  show (Finset.univ.filter fun i => (reducesTo_S32x4x16x4x16x512_S32x4x4x512_d2_4).drop i = ix4 b r c ch).fold max
      (Ideal.ofBits .f32 0xFF800000#32) (ReadP.val_main_v16 (F := Ideal) x0) = _
  rw [ofBits_neg_inf, fold_max_fibre]
  simp only [val_main_v16_apply]

/-- The sum from 0 over axes 2 and 4: the sum over the 16 × 16 entries of the bin. -/
theorem sum4 (x0 : (⟨S32x64x64x512, .f32⟩ : BufTy).Contents (Elt Ideal)) (b : Fin 32) (r c : Fin 4) (ch : Fin 512) :
    ReadP.val_main_v18 (F := Ideal) x0 (ix4 b r c ch)
      = ∑ i : Fin 16, ∑ j : Fin 16, x0 (ix4 b (at16 r i) (at16 c j) ch) := by
  unfold ReadP.val_main_v18
  show Ideal.ofBits .f32 0x00000000#32
      + ∑ i ∈ Finset.univ.filter (fun i => (reducesTo_S32x4x16x4x16x512_S32x4x4x512_d2_4).drop i = ix4 b r c ch), ReadP.val_main_v16 (F := Ideal) x0 i = _
  rw [ofBits_zero, zero_add, sum_fibre]
  simp only [val_main_v16_apply]

/-! ## The 2 × 2 level: bins of 32 × 32 -/

/-- The reshaped array at (b, R, a, C, a', ch) is x at (b, 32·R + a, 32·C + a', ch): the two row-major positions agree. -/
theorem val_main_v8_apply (x0 : (⟨S32x64x64x512, .f32⟩ : BufTy).Contents (Elt Ideal)) (b : Fin 32) (R C : Fin 2) (ch : Fin 512)
    (a a' : Fin 32) :
    ReadP.val_main_v8 (F := Ideal) x0 (ix6 b R a C a' ch) = x0 (ix4 b (at32 R a) (at32 C a') ch) := by
  unfold ReadP.val_main_v8
  exact shapeCast_apply x0 shapeCasts_S32x64x64x512_S32x2x32x2x32x512 (ix6 b R a C a' ch) (ix4 b (at32 R a) (at32 C a') ch)
    (by
      rewrite [Shape.rowMajor_val_four, Shape.rowMajor_val_six]
      show ((b.val * 64 + (32 * R.val + a.val)) * 64 + (32 * C.val + a'.val)) * 512 + ch.val
        = ((((b.val * 2 + R.val) * 32 + a.val) * 2 + C.val) * 32 + a'.val) * 512 + ch.val
      omega)

/-- The maximum from -∞ over axes 2 and 4: the supremum over the 32 × 32 entries of the bin. -/
theorem max2 (x0 : (⟨S32x64x64x512, .f32⟩ : BufTy).Contents (Elt Ideal)) (b : Fin 32) (R C : Fin 2) (ch : Fin 512) :
    ReadP.val_main_v9 (F := Ideal) x0 (ix4 b R C ch)
      = Finset.univ.sup fun i : Fin 32 => Finset.univ.sup fun j : Fin 32 => x0 (ix4 b (at32 R i) (at32 C j) ch) := by
  unfold ReadP.val_main_v9
  refine (Host.reduce_eq_fold _ _ _ _ _ _).trans ?_
  show (Finset.univ.filter fun i => (reducesTo_S32x2x32x2x32x512_S32x2x2x512_d2_4).drop i = ix4 b R C ch).fold max
      (Ideal.ofBits .f32 0xFF800000#32) (ReadP.val_main_v8 (F := Ideal) x0) = _
  rw [ofBits_neg_inf, fold_max_fibre]
  simp only [val_main_v8_apply]

/-- The sum from 0 over axes 2 and 4: the sum over the 32 × 32 entries of the bin. -/
theorem sum2 (x0 : (⟨S32x64x64x512, .f32⟩ : BufTy).Contents (Elt Ideal)) (b : Fin 32) (R C : Fin 2) (ch : Fin 512) :
    ReadP.val_main_v10 (F := Ideal) x0 (ix4 b R C ch)
      = ∑ i : Fin 32, ∑ j : Fin 32, x0 (ix4 b (at32 R i) (at32 C j) ch) := by
  unfold ReadP.val_main_v10
  show Ideal.ofBits .f32 0x00000000#32
      + ∑ i ∈ Finset.univ.filter (fun i => (reducesTo_S32x2x32x2x32x512_S32x2x2x512_d2_4).drop i = ix4 b R C ch), ReadP.val_main_v8 (F := Ideal) x0 i = _
  rw [ofBits_zero, zero_add, sum_fibre]
  simp only [val_main_v8_apply]

/-! ## The 1 × 1 level: the whole 64 × 64 plane -/

/-- The reshaped array at (b, 0, a, 0, a', ch) is x at (b, a, a', ch): the two row-major positions agree. -/
theorem val_main_v0_apply (x0 : (⟨S32x64x64x512, .f32⟩ : BufTy).Contents (Elt Ideal)) (b : Fin 32) (ch : Fin 512)
    (a a' : Fin 64) :
    ReadP.val_main_v0 (F := Ideal) x0 (ix6 b (0 : Fin 1) a (0 : Fin 1) a' ch) = x0 (ix4 b a a' ch) := by
  unfold ReadP.val_main_v0
  exact shapeCast_apply x0 shapeCasts_S32x64x64x512_S32x1x64x1x64x512 (ix6 b (0 : Fin 1) a (0 : Fin 1) a' ch) (ix4 b a a' ch)
    (by
      rewrite [Shape.rowMajor_val_four, Shape.rowMajor_val_six]
      show ((b.val * 64 + a.val) * 64 + a'.val) * 512 + ch.val
        = ((((b.val * 1 + 0) * 64 + a.val) * 1 + 0) * 64 + a'.val) * 512 + ch.val
      omega)

/-- The maximum from -∞ over axes 2 and 4: the supremum over the 64 × 64 entries of the bin. -/
theorem max1 (x0 : (⟨S32x64x64x512, .f32⟩ : BufTy).Contents (Elt Ideal)) (b : Fin 32) (ch : Fin 512) :
    ReadP.val_main_v1 (F := Ideal) x0 (ix4 b (0 : Fin 1) (0 : Fin 1) ch)
      = Finset.univ.sup fun i : Fin 64 => Finset.univ.sup fun j : Fin 64 => x0 (ix4 b i j ch) := by
  unfold ReadP.val_main_v1
  refine (Host.reduce_eq_fold _ _ _ _ _ _).trans ?_
  show (Finset.univ.filter fun i => (reducesTo_S32x1x64x1x64x512_S32x1x1x512_d2_4).drop i = ix4 b (0 : Fin 1) (0 : Fin 1) ch).fold max
      (Ideal.ofBits .f32 0xFF800000#32) (ReadP.val_main_v0 (F := Ideal) x0) = _
  rw [ofBits_neg_inf, fold_max_fibre]
  simp only [val_main_v0_apply]

/-- The sum from 0 over axes 2 and 4: the sum over the 64 × 64 entries of the bin. -/
theorem sum1 (x0 : (⟨S32x64x64x512, .f32⟩ : BufTy).Contents (Elt Ideal)) (b : Fin 32) (ch : Fin 512) :
    ReadP.val_main_v2 (F := Ideal) x0 (ix4 b (0 : Fin 1) (0 : Fin 1) ch)
      = ∑ i : Fin 64, ∑ j : Fin 64, x0 (ix4 b i j ch) := by
  unfold ReadP.val_main_v2
  show Ideal.ofBits .f32 0x00000000#32
      + ∑ i ∈ Finset.univ.filter (fun i => (reducesTo_S32x1x64x1x64x512_S32x1x1x512_d2_4).drop i = ix4 b (0 : Fin 1) (0 : Fin 1) ch), ReadP.val_main_v0 (F := Ideal) x0 i = _
  rw [ofBits_zero, zero_add, sum_fibre]
  simp only [val_main_v0_apply]

end Cert.ReferenceIdeal.Reduce

end
-- ==== Proof.RLevels.lean ====
/-
  Each level of the reference's pyramid, read at an index, is the specification's bin value: maximum plus mean.

  The reference computes a level's maximum and sum over a bin with the bin's ROWS outermost and its columns innermost,
  over the whole bin at once (16, 32 or 64 rows and columns); the specification builds every bin from 16 × 16 cells,
  cell rows and cell columns outermost, then the cell's COLUMNS, then its rows. Suprema and sums over finite index sets
  commute and regroup into consecutive runs, on every extended real, so the two agree with nothing assumed of the
  entries. The mean is the sum divided by the number of entries (256, 1024, 4096), which on every extended real is the
  product with the reciprocal.

  First the regrouping, for an arbitrary function on the 64 × 64 plane; then the three levels.
-/
import proofs.«141487_j40166534152820_2_alg».proof.Proof.RefRead
import proofs.«141487_j40166534152820_2_alg».proof.Proof.Spec

noncomputable section

open scoped BigOperators

namespace Cert.ReferenceIdeal.Levels

open Idealize.ShloMosaic Idealize.ShloMosaic.ValueIdx
open Cert.ReferenceIdeal Cert.Pyramid

/-! ## An axis of 32 or 64 positions cut into runs of 16 -/

/-- A supremum over 32 positions is the supremum over the 2 runs of 16 of the supremum over each run. -/
theorem sup_fin32 (f : Fin 32 → EReal) :
    Finset.univ.sup f
      = Finset.univ.sup fun d : Fin 2 => Finset.univ.sup fun i : Fin 16 => f ⟨16 * d.val + i.val, by omega⟩ :=
  (sup_blocks_mul 2 16 f).symm

/-- A supremum over 64 positions is the supremum over the 4 runs of 16 of the supremum over each run. -/
theorem sup_fin64 (f : Fin 64 → EReal) :
    Finset.univ.sup f = Finset.univ.sup fun r : Fin 4 => Finset.univ.sup fun i : Fin 16 => f (at16 r i) :=
  (sup_blocks_mul 4 16 f).symm

/-- A sum over 32 positions is the sum over the 2 runs of 16 of the sum over each run. -/
theorem sum_fin32 (f : Fin 32 → EReal) :
    ∑ k : Fin 32, f k = ∑ d : Fin 2, ∑ i : Fin 16, f ⟨16 * d.val + i.val, by omega⟩ :=
  (LibBlockSum.sum_blocks_mul 2 16 f).symm

/-- A sum over 64 positions is the sum over the 4 runs of 16 of the sum over each run. -/
theorem sum_fin64 (f : Fin 64 → EReal) :
    ∑ k : Fin 64, f k = ∑ r : Fin 4, ∑ i : Fin 16, f (at16 r i) :=
  (LibBlockSum.sum_blocks_mul 4 16 f).symm

/-- Position 16 d + i of the R-th run of 32 is position i of the (2 R + d)-th run of 16. -/
theorem at32_block (R d : Fin 2) (i : Fin 16) (h : 16 * d.val + i.val < 32) :
    at32 R ⟨16 * d.val + i.val, h⟩ = at16 (sub2 R d) i := by
  apply Fin.ext
  show 32 * R.val + (16 * d.val + i.val) = 16 * (2 * R.val + d.val) + i.val
  omega

/-- The supremum over the R-th run of 32 is the supremum over its two runs of 16. -/
theorem sup_run32 (f : Fin 64 → EReal) (R : Fin 2) :
    (Finset.univ.sup fun i : Fin 32 => f (at32 R i))
      = Finset.univ.sup fun d : Fin 2 => Finset.univ.sup fun i : Fin 16 => f (at16 (sub2 R d) i) := by
  refine (sup_fin32 fun i => f (at32 R i)).trans ?_
  exact Finset.sup_congr rfl fun d _ => Finset.sup_congr rfl fun i _ => congrArg f (at32_block R d i _)

/-- The sum over the R-th run of 32 is the sum over its two runs of 16. -/
theorem sum_run32 (f : Fin 64 → EReal) (R : Fin 2) :
    ∑ i : Fin 32, f (at32 R i) = ∑ d : Fin 2, ∑ i : Fin 16, f (at16 (sub2 R d) i) := by
  refine (sum_fin32 fun i => f (at32 R i)).trans ?_
  exact Finset.sum_congr rfl fun d _ => Finset.sum_congr rfl fun i _ => congrArg f (at32_block R d i _)

/-! ## Four nested suprema or sums reordered -/

/-- From (run of rows, row, run of columns, column) to (run of rows, run of columns, column, row). -/
theorem sup_reorder {a b : ℕ} (h : Fin a → Fin 16 → Fin b → Fin 16 → EReal) :
    (Finset.univ.sup fun dr : Fin a => Finset.univ.sup fun i : Fin 16 =>
        Finset.univ.sup fun dc : Fin b => Finset.univ.sup fun j : Fin 16 => h dr i dc j)
      = Finset.univ.sup fun dr : Fin a => Finset.univ.sup fun dc : Fin b =>
          Finset.univ.sup fun j : Fin 16 => Finset.univ.sup fun i : Fin 16 => h dr i dc j := by
  refine Finset.sup_congr rfl fun dr _ => ?_
  refine (Finset.sup_comm _ _ _).trans ?_
  exact Finset.sup_congr rfl fun dc _ => Finset.sup_comm _ _ _

theorem sum_reorder {a b : ℕ} (h : Fin a → Fin 16 → Fin b → Fin 16 → EReal) :
    ∑ dr : Fin a, ∑ i : Fin 16, ∑ dc : Fin b, ∑ j : Fin 16, h dr i dc j
      = ∑ dr : Fin a, ∑ dc : Fin b, ∑ j : Fin 16, ∑ i : Fin 16, h dr i dc j := by
  refine Finset.sum_congr rfl fun dr _ => ?_
  refine Finset.sum_comm.trans ?_
  exact Finset.sum_congr rfl fun dc _ => Finset.sum_comm

/-! ## A bin of the plane as its 16 × 16 cells -/

/-- A 32 × 32 bin, rows outermost, is its 2 × 2 cells, each with its columns outermost. -/
theorem sup_plane2 (g : Fin 64 → Fin 64 → EReal) (R C : Fin 2) :
    (Finset.univ.sup fun i : Fin 32 => Finset.univ.sup fun j : Fin 32 => g (at32 R i) (at32 C j))
      = Finset.univ.sup fun dr : Fin 2 => Finset.univ.sup fun dc : Fin 2 =>
          Finset.univ.sup fun j : Fin 16 => Finset.univ.sup fun i : Fin 16 =>
            g (at16 (sub2 R dr) i) (at16 (sub2 C dc) j) := by
  refine (sup_run32 (fun a => Finset.univ.sup fun j : Fin 32 => g a (at32 C j)) R).trans ?_
  refine Eq.trans ?_ (sup_reorder fun dr i dc j => g (at16 (sub2 R dr) i) (at16 (sub2 C dc) j))
  exact Finset.sup_congr rfl fun dr _ => Finset.sup_congr rfl fun i _ =>
    sup_run32 (fun c => g (at16 (sub2 R dr) i) c) C

theorem sum_plane2 (g : Fin 64 → Fin 64 → EReal) (R C : Fin 2) :
    ∑ i : Fin 32, ∑ j : Fin 32, g (at32 R i) (at32 C j)
      = ∑ dr : Fin 2, ∑ dc : Fin 2, ∑ j : Fin 16, ∑ i : Fin 16, g (at16 (sub2 R dr) i) (at16 (sub2 C dc) j) := by
  refine (sum_run32 (fun a => ∑ j : Fin 32, g a (at32 C j)) R).trans ?_
  refine Eq.trans ?_ (sum_reorder fun dr i dc j => g (at16 (sub2 R dr) i) (at16 (sub2 C dc) j))
  exact Finset.sum_congr rfl fun dr _ => Finset.sum_congr rfl fun i _ =>
    sum_run32 (fun c => g (at16 (sub2 R dr) i) c) C

/-- The whole 64 × 64 plane, rows outermost, is its 4 × 4 cells, each with its columns outermost. -/
theorem sup_plane1 (g : Fin 64 → Fin 64 → EReal) :
    (Finset.univ.sup fun i : Fin 64 => Finset.univ.sup fun j : Fin 64 => g i j)
      = Finset.univ.sup fun r : Fin 4 => Finset.univ.sup fun c : Fin 4 =>
          Finset.univ.sup fun j : Fin 16 => Finset.univ.sup fun i : Fin 16 => g (at16 r i) (at16 c j) := by
  refine (sup_fin64 fun a => Finset.univ.sup fun j : Fin 64 => g a j).trans ?_
  refine Eq.trans ?_ (sup_reorder fun r i c j => g (at16 r i) (at16 c j))
  exact Finset.sup_congr rfl fun r _ => Finset.sup_congr rfl fun i _ => sup_fin64 fun c => g (at16 r i) c

theorem sum_plane1 (g : Fin 64 → Fin 64 → EReal) :
    ∑ i : Fin 64, ∑ j : Fin 64, g i j
      = ∑ r : Fin 4, ∑ c : Fin 4, ∑ j : Fin 16, ∑ i : Fin 16, g (at16 r i) (at16 c j) := by
  refine (sum_fin64 fun a => ∑ j : Fin 64, g a j).trans ?_
  refine Eq.trans ?_ (sum_reorder fun r i c j => g (at16 r i) (at16 c j))
  exact Finset.sum_congr rfl fun r _ => Finset.sum_congr rfl fun i _ => sum_fin64 fun c => g (at16 r i) c

/-! ## The three levels -/

/-- The 4 × 4 level: a bin is one cell; only the order of rows and columns differs. -/
theorem level4 (x0 : (⟨S32x64x64x512, .f32⟩ : BufTy).Contents (Elt Ideal))
    (hmax : ∀ (b : Fin 32) (r c : Fin 4) (ch : Fin 512), ReadP.val_main_v17 (F := Ideal) x0 (ix4 b r c ch)
      = Finset.univ.sup fun i : Fin 16 => Finset.univ.sup fun j : Fin 16 => x0 (ix4 b (at16 r i) (at16 c j) ch))
    (hsum : ∀ (b : Fin 32) (r c : Fin 4) (ch : Fin 512), ReadP.val_main_v18 (F := Ideal) x0 (ix4 b r c ch)
      = ∑ i : Fin 16, ∑ j : Fin 16, x0 (ix4 b (at16 r i) (at16 c j) ch))
    (b : Fin 32) (r c : Fin 4) (ch : Fin 512) :
    ReadP.val_main_v21 (F := Ideal) x0 (ix4 b r c ch) = bin4 x0 b r c ch := by
  rw [ReadP.val_main_v21_apply, ReadP.val_main_v20_apply, ReadP.val_main_v19_apply, ReadP.val_main_cst_7_apply,
    hmax, hsum, Ideal.addf_def, Ideal.hostDivf_def, Ideal.ofBits_def, div_256]
  unfold bin4 cellMax cellSum
  rw [Finset.sup_comm, Finset.sum_comm]

/-- The 2 × 2 level: a bin is 2 × 2 cells. -/
theorem level2 (x0 : (⟨S32x64x64x512, .f32⟩ : BufTy).Contents (Elt Ideal))
    (hmax : ∀ (b : Fin 32) (R C : Fin 2) (ch : Fin 512), ReadP.val_main_v9 (F := Ideal) x0 (ix4 b R C ch)
      = Finset.univ.sup fun i : Fin 32 => Finset.univ.sup fun j : Fin 32 => x0 (ix4 b (at32 R i) (at32 C j) ch))
    (hsum : ∀ (b : Fin 32) (R C : Fin 2) (ch : Fin 512), ReadP.val_main_v10 (F := Ideal) x0 (ix4 b R C ch)
      = ∑ i : Fin 32, ∑ j : Fin 32, x0 (ix4 b (at32 R i) (at32 C j) ch))
    (b : Fin 32) (R C : Fin 2) (ch : Fin 512) :
    ReadP.val_main_v13 (F := Ideal) x0 (ix4 b R C ch) = bin2 x0 b R C ch := by
  rw [ReadP.val_main_v13_apply, ReadP.val_main_v12_apply, ReadP.val_main_v11_apply, ReadP.val_main_cst_4_apply,
    hmax, hsum, Ideal.addf_def, Ideal.hostDivf_def, Ideal.ofBits_def, div_1024]
  unfold bin2 max2 sum2 cellMax cellSum
  rw [sup_plane2 (fun a c => x0 (ix4 b a c ch)) R C, sum_plane2 (fun a c => x0 (ix4 b a c ch)) R C]

/-- The 1 × 1 level: the one bin is all 4 × 4 cells. -/
theorem level1 (x0 : (⟨S32x64x64x512, .f32⟩ : BufTy).Contents (Elt Ideal))
    (hmax : ∀ (b : Fin 32) (ch : Fin 512), ReadP.val_main_v1 (F := Ideal) x0 (ix4 b (0 : Fin 1) (0 : Fin 1) ch)
      = Finset.univ.sup fun i : Fin 64 => Finset.univ.sup fun j : Fin 64 => x0 (ix4 b i j ch))
    (hsum : ∀ (b : Fin 32) (ch : Fin 512), ReadP.val_main_v2 (F := Ideal) x0 (ix4 b (0 : Fin 1) (0 : Fin 1) ch)
      = ∑ i : Fin 64, ∑ j : Fin 64, x0 (ix4 b i j ch))
    (b : Fin 32) (ch : Fin 512) :
    ReadP.val_main_v5 (F := Ideal) x0 (ix4 b (0 : Fin 1) (0 : Fin 1) ch) = bin1 x0 b ch := by
  rw [ReadP.val_main_v5_apply, ReadP.val_main_v4_apply, ReadP.val_main_v3_apply, ReadP.val_main_cst_1_apply,
    hmax, hsum, Ideal.addf_def, Ideal.hostDivf_def, Ideal.ofBits_def, div_4096]
  unfold bin1 max1 sum1 cellMax cellSum
  rw [sup_plane1 (fun a c => x0 (ix4 b a c ch)), sum_plane1 (fun a c => x0 (ix4 b a c ch))]

end Cert.ReferenceIdeal.Levels

end
-- ==== Proof.RResult.lean ====
/-
  The reference's result, index by index, is the specification's pooled array.

  The result row of batch entry b is three pieces laid end to end: the 1 × 1 level (512 positions), the 2 × 2 level
  (2048 positions) and the 4 × 4 level (8192 positions). Each piece is a level's array [b, row bin, column bin, ch]
  with its two middle axes exchanged and then flattened, so inside a piece the COLUMN bin is outermost, then the row
  bin, then the channel: position 512 · (n · column bin + row bin) + ch for a level with n bins per side. Position q
  of the whole row is therefore bin q / 512, channel q % 512, in the specification's numbering of the 21 bins.

  First the index arithmetic of each piece (flattened position → the level's four coordinates), then each piece read
  out of the concatenation, then the theorem by the range position q falls in.
-/
import proofs.«141487_j40166534152820_2_alg».proof.Proof.RefRead
import proofs.«141487_j40166534152820_2_alg».proof.Proof.Spec
import Idealize.ShloMosaic.Lib.Pipeline.Value
import Idealize.ShloMosaic.Lib.ValueIdx

noncomputable section

open scoped BigOperators

namespace Cert.ReferenceIdeal.Result

open Idealize.ShloMosaic Idealize.ShloMosaic.ValueIdx
open Cert.ReferenceIdeal Cert.Pyramid

/-! ## Where a flattened position of a piece reads its level -/

/-- The 1 × 1 piece: position q of row b reads the level at (b, 0, 0, q). -/
theorem idx1 (b : Fin 32) (q : Fin 512) :
    ReadP.idx_main_v6 (ReadP.idx_main_v7 (ix2 b q)) = ix4 b (0 : Fin 1) (0 : Fin 1) q := by
  funext a
  match a with
  | ⟨0, _⟩ => apply Fin.ext; show (b.val * 512 + q.val) / 512 = b.val; omega
  | ⟨1, _⟩ => rfl
  | ⟨2, _⟩ => rfl
  | ⟨3, _⟩ => apply Fin.ext; show (b.val * 512 + q.val) % 512 = q.val; omega

/-- The 2 × 2 piece: position q of row b reads the level at row bin q / 512 % 2, column bin q / 1024 % 2,
    channel q % 512. -/
theorem idx2 (b : Fin 32) (q : Fin 2048) :
    ReadP.idx_main_v14 (ReadP.idx_main_v15 (ix2 b q))
      = ix4 b (⟨q.val / 512 % 2, by omega⟩ : Fin 2) (⟨q.val / 1024 % 2, by omega⟩ : Fin 2)
          (⟨q.val % 512, by omega⟩ : Fin 512) := by
  funext a
  match a with
  | ⟨0, _⟩ => apply Fin.ext; show (b.val * 2048 + q.val) / 2048 = b.val; omega
  | ⟨1, _⟩ => apply Fin.ext; show (b.val * 2048 + q.val) / 512 % 2 = q.val / 512 % 2; omega
  | ⟨2, _⟩ => apply Fin.ext; show (b.val * 2048 + q.val) / 1024 % 2 = q.val / 1024 % 2; omega
  | ⟨3, _⟩ => apply Fin.ext; show (b.val * 2048 + q.val) % 512 = q.val % 512; omega

/-- The 4 × 4 piece: position q of row b reads the level at row bin q / 512 % 4, column bin q / 2048 % 4,
    channel q % 512. -/
theorem idx4 (b : Fin 32) (q : Fin 8192) :
    ReadP.idx_main_v22 (ReadP.idx_main_v23 (ix2 b q))
      = ix4 b (⟨q.val / 512 % 4, by omega⟩ : Fin 4) (⟨q.val / 2048 % 4, by omega⟩ : Fin 4)
          (⟨q.val % 512, by omega⟩ : Fin 512) := by
  funext a
  match a with
  | ⟨0, _⟩ => apply Fin.ext; show (b.val * 8192 + q.val) / 8192 = b.val; omega
  | ⟨1, _⟩ => apply Fin.ext; show (b.val * 8192 + q.val) / 512 % 4 = q.val / 512 % 4; omega
  | ⟨2, _⟩ => apply Fin.ext; show (b.val * 8192 + q.val) / 2048 % 4 = q.val / 2048 % 4; omega
  | ⟨3, _⟩ => apply Fin.ext; show (b.val * 8192 + q.val) % 512 = q.val % 512; omega

/-! ## The three pieces of the result row -/

/-- Positions below 512 are the first piece. -/
theorem cat0 (x0 : (⟨S32x64x64x512, .f32⟩ : BufTy).Contents (Elt Ideal)) (b : Fin 32) (q : Fin 10752)
    (hq : q.val < 512) :
    ReadP.val_main_v24 (F := Ideal) x0 (ix2 b q) = ReadP.val_main_v7 (F := Ideal) x0 (ix2 b (⟨q.val, hq⟩ : Fin 512)) := by
  unfold ReadP.val_main_v24
  refine concatenate_apply_piece (1 : Fin 2) _ _ (ix2 b q) 0 ?_ S32x512 _ ?_ rfl 0 ?_
    (ix2 b (⟨q.val, hq⟩ : Fin 512)) (fun b' hb' => ?_) ?_
  · simp
  · rfl
  · rfl
  · match b', hb' with
    | ⟨0, _⟩, _ => rfl
    | ⟨1, _⟩, h => exact absurd (Fin.ext rfl) h
  · show 0 + q.val = q.val
    omega

/-- Positions 512 … 2559 are the second piece. -/
theorem cat1 (x0 : (⟨S32x64x64x512, .f32⟩ : BufTy).Contents (Elt Ideal)) (b : Fin 32) (q : Fin 10752)
    (hlo : 512 ≤ q.val) (hhi : q.val < 2560) :
    ReadP.val_main_v24 (F := Ideal) x0 (ix2 b q)
      = ReadP.val_main_v15 (F := Ideal) x0 (ix2 b (⟨q.val - 512, by omega⟩ : Fin 2048)) := by
  unfold ReadP.val_main_v24
  refine concatenate_apply_piece (1 : Fin 2) _ _ (ix2 b q) 1 (by simp) S32x2048 _ rfl rfl 512 rfl
    (ix2 b (⟨q.val - 512, by omega⟩ : Fin 2048)) (fun b' hb' => ?_) ?_
  · match b', hb' with
    | ⟨0, _⟩, _ => rfl
    | ⟨1, _⟩, h => exact absurd (Fin.ext rfl) h
  · show 512 + (q.val - 512) = q.val
    omega

/-- Positions from 2560 on are the third piece. -/
theorem cat2 (x0 : (⟨S32x64x64x512, .f32⟩ : BufTy).Contents (Elt Ideal)) (b : Fin 32) (q : Fin 10752)
    (hlo : 2560 ≤ q.val) :
    ReadP.val_main_v24 (F := Ideal) x0 (ix2 b q)
      = ReadP.val_main_v23 (F := Ideal) x0 (ix2 b (⟨q.val - 2560, by omega⟩ : Fin 8192)) := by
  unfold ReadP.val_main_v24
  refine concatenate_apply_piece (1 : Fin 2) _ _ (ix2 b q) 2 (by simp) S32x8192 _ rfl rfl 2560 rfl
    (ix2 b (⟨q.val - 2560, by omega⟩ : Fin 8192)) (fun b' hb' => ?_) ?_
  · match b', hb' with
    | ⟨0, _⟩, _ => rfl
    | ⟨1, _⟩, h => exact absurd (Fin.ext rfl) h
  · show 2560 + (q.val - 2560) = q.val
    omega

/-- The specification's result at position q of row b: bin q / 512, channel q % 512. -/
theorem G_ix2 (x : (⟨4, ![32, 64, 64, 512]⟩ : Shape).Idx → EReal) (b : Fin 32) (q : Fin 10752) :
    G x (ix2 b q) = binVal x b ⟨q.val / 512, by omega⟩ ⟨q.val % 512, by omega⟩ := rfl

/-! ## The result -/

theorem piece0 (x0 : (⟨S32x64x64x512, .f32⟩ : BufTy).Contents (Elt Ideal))
    (h1 : ∀ (b : Fin 32) (ch : Fin 512), ReadP.val_main_v5 (F := Ideal) x0 (ix4 b (0 : Fin 1) (0 : Fin 1) ch) = bin1 x0 b ch)
    (b : Fin 32) (q : Fin 10752) (hq : q.val < 512) :
    ReadP.val_main_v24 (F := Ideal) x0 (ix2 b q) = G x0 (ix2 b q) := by
  refine (cat0 x0 b q hq).trans ?_
  refine (ReadP.val_main_v7_apply x0 _).trans ?_
  refine (ReadP.val_main_v6_apply x0 _).trans ?_
  refine (congrArg (ReadP.val_main_v5 (F := Ideal) x0) (idx1 b ⟨q.val, hq⟩)).trans ?_
  refine (h1 b ⟨q.val, hq⟩).trans ?_
  rw [G_ix2, binVal_zero x0 b _ _ (show q.val / 512 = 0 by omega)]
  exact congrArg (bin1 x0 b) (Fin.ext (show q.val = q.val % 512 by omega))

theorem piece1 (x0 : (⟨S32x64x64x512, .f32⟩ : BufTy).Contents (Elt Ideal))
    (h2 : ∀ (b : Fin 32) (R C : Fin 2) (ch : Fin 512), ReadP.val_main_v13 (F := Ideal) x0 (ix4 b R C ch) = bin2 x0 b R C ch)
    (b : Fin 32) (q : Fin 10752) (hlo : 512 ≤ q.val) (hhi : q.val < 2560) :
    ReadP.val_main_v24 (F := Ideal) x0 (ix2 b q) = G x0 (ix2 b q) := by
  refine (cat1 x0 b q hlo hhi).trans ?_
  refine (ReadP.val_main_v15_apply x0 _).trans ?_
  refine (ReadP.val_main_v14_apply x0 _).trans ?_
  refine (congrArg (ReadP.val_main_v13 (F := Ideal) x0) (idx2 b ⟨q.val - 512, by omega⟩)).trans ?_
  refine (h2 b _ _ _).trans ?_
  rw [G_ix2, binVal_two x0 b _ _ (⟨(q.val - 512) / 512 % 2, by omega⟩ : Fin 2) (⟨(q.val - 512) / 1024 % 2, by omega⟩ : Fin 2)
    (show q.val / 512 = 1 + 2 * ((q.val - 512) / 1024 % 2) + (q.val - 512) / 512 % 2 by omega)]
  exact congrArg (bin2 x0 b _ _) (Fin.ext (show (q.val - 512) % 512 = q.val % 512 by omega))

theorem piece2 (x0 : (⟨S32x64x64x512, .f32⟩ : BufTy).Contents (Elt Ideal))
    (h4 : ∀ (b : Fin 32) (r c : Fin 4) (ch : Fin 512), ReadP.val_main_v21 (F := Ideal) x0 (ix4 b r c ch) = bin4 x0 b r c ch)
    (b : Fin 32) (q : Fin 10752) (hlo : 2560 ≤ q.val) :
    ReadP.val_main_v24 (F := Ideal) x0 (ix2 b q) = G x0 (ix2 b q) := by
  refine (cat2 x0 b q hlo).trans ?_
  refine (ReadP.val_main_v23_apply x0 _).trans ?_
  refine (ReadP.val_main_v22_apply x0 _).trans ?_
  refine (congrArg (ReadP.val_main_v21 (F := Ideal) x0) (idx4 b ⟨q.val - 2560, by omega⟩)).trans ?_
  refine (h4 b _ _ _).trans ?_
  rw [G_ix2, binVal_four x0 b _ _ (⟨(q.val - 2560) / 512 % 4, by omega⟩ : Fin 4) (⟨(q.val - 2560) / 2048 % 4, by omega⟩ : Fin 4)
    (show q.val / 512 = 5 + 4 * ((q.val - 2560) / 2048 % 4) + (q.val - 2560) / 512 % 4 by omega)]
  exact congrArg (bin4 x0 b _ _) (Fin.ext (show (q.val - 2560) % 512 = q.val % 512 by omega))

/-- The reference's result is the specification's pooled array. -/
theorem ref_eq (x0 : (⟨S32x64x64x512, .f32⟩ : BufTy).Contents (Elt Ideal))
    (h1 : ∀ (b : Fin 32) (ch : Fin 512), ReadP.val_main_v5 (F := Ideal) x0 (ix4 b (0 : Fin 1) (0 : Fin 1) ch) = bin1 x0 b ch)
    (h2 : ∀ (b : Fin 32) (R C : Fin 2) (ch : Fin 512), ReadP.val_main_v13 (F := Ideal) x0 (ix4 b R C ch) = bin2 x0 b R C ch)
    (h4 : ∀ (b : Fin 32) (r c : Fin 4) (ch : Fin 512), ReadP.val_main_v21 (F := Ideal) x0 (ix4 b r c ch) = bin4 x0 b r c ch) :
    ReadP.val_main_v24 (F := Ideal) x0 = G x0 := by
  funext j
  obtain ⟨b, q, rfl⟩ : ∃ (b : Fin 32) (q : Fin 10752), j = ix2 b q := ⟨j 0, j 1, eq_ix2 j⟩
  by_cases hA : q.val < 512
  · exact piece0 x0 h1 b q hA
  · by_cases hB : q.val < 2560
    · exact piece1 x0 h2 b q (by omega) hB
    · exact piece2 x0 h4 b q (by omega)

end Cert.ReferenceIdeal.Result

end
-- ==== Proof.lean ====
/-
  Spatial pyramid pooling, maximum plus mean, of x : f32[32, 64, 64, 512] over the 1 × 1, 2 × 2 and 4 × 4 cuts of the
  64 × 64 plane: the kernel against the plain array program, as extended reals.

  Both programs compute, for every batch entry, every one of the 21 bins and every channel, the bin's maximum plus its
  sum divided by its number of entries. The reference reshapes the plane into p × p bins of s × s entries, reduces with
  maximum and with addition over the two in-bin axes, divides the sum by s², adds, and lays the bins out column bin
  outermost; it does so once per level and concatenates the three results. The kernel visits the plane once: per batch
  entry it takes the maximum and the sum of each of the sixteen 16 × 16 cells, stores per cell maximum + sum · 1/256,
  per bin of the 2 × 2 level the maximum of its four cells' maxima + the sum of their sums · 1/1024, and for the whole
  plane the maximum of the sixteen maxima + the sum of the sixteen sums · 1/4096, at the bin's position; the 21 × 512
  values of a batch entry are then read as one row.

  The two agree at every extended real: a maximum over a bin is the maximum of the maxima over the cells that tile it,
  a sum over a bin the sum of the sums, because maximum and addition are commutative and associative there; and
  1/256, 1/1024, 1/4096 are exact binary fractions, so multiplying by them is dividing by 256, 1024, 4096 on every
  extended real. No step uses that the entries are finite: the precondition is never opened.

  Spec.lean states the common value (G); the modules K… read the kernel's run down to G, the modules R… the reference's.
-/
import proofs.«141487_j40166534152820_2_alg».proof.Defs
import proofs.«141487_j40166534152820_2_alg».proof.Proof.Gen.Kernel
import proofs.«141487_j40166534152820_2_alg».proof.Proof.Gen.Kernel.Skeleton
import proofs.«141487_j40166534152820_2_alg».proof.Proof.Gen.Kernel.Launch
import proofs.«141487_j40166534152820_2_alg».proof.Proof.Gen.Kernel.Points
import proofs.«141487_j40166534152820_2_alg».proof.Proof.Gen.Kernel.Frame
import proofs.«141487_j40166534152820_2_alg».proof.Proof.Gen.KernelIdeal
import proofs.«141487_j40166534152820_2_alg».proof.Proof.Gen.KernelIdeal.Skeleton
import proofs.«141487_j40166534152820_2_alg».proof.Proof.Gen.KernelIdeal.Launch
import proofs.«141487_j40166534152820_2_alg».proof.Proof.Gen.KernelIdeal.Points
import proofs.«141487_j40166534152820_2_alg».proof.Proof.Gen.KernelIdeal.Frame
import proofs.«141487_j40166534152820_2_alg».proof.Proof.Gen.ReferenceIdeal
import proofs.«141487_j40166534152820_2_alg».proof.Proof.Gen.Pre_finite_inputs
import proofs.«141487_j40166534152820_2_alg».proof.Proof.Spec
import proofs.«141487_j40166534152820_2_alg».proof.Proof.RefRun
import proofs.«141487_j40166534152820_2_alg».proof.Proof.RefRead
import proofs.«141487_j40166534152820_2_alg».proof.Proof.KNorm
import proofs.«141487_j40166534152820_2_alg».proof.Proof.KMath
import proofs.«141487_j40166534152820_2_alg».proof.Proof.KBody
import proofs.«141487_j40166534152820_2_alg».proof.Proof.KLaunch
import proofs.«141487_j40166534152820_2_alg».proof.Proof.RReduce
import proofs.«141487_j40166534152820_2_alg».proof.Proof.RLevels
import proofs.«141487_j40166534152820_2_alg».proof.Proof.RResult
import Idealize.ShloMosaic.Adequacy
import Idealize.ShloMosaic.Init

noncomputable section

namespace Cert.Proof

open Idealize.ShloMosaic Idealize.ShloMosaic.TcCoe Idealize.SL.Sem Cert.Pyramid

/-- The word-level kernel runs and leaves its argument alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the value of the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal reading rewrote no operation of the kernel. -/
theorem preserves : Cert.preserves_Kernel_KernelIdeal := trivial

/-- The reference's result is the pooled array G of its argument: the two-axis reductions read at an index, each level
    as the bin value, the three levels laid out and joined. -/
theorem reference_result (x0 : (⟨Cert.ReferenceIdeal.S32x64x64x512, .f32⟩ : BufTy).Contents (Elt Ideal)) :
    Cert.ReferenceIdeal.ReadP.val_main_v24 (F := Ideal) x0 = G x0 :=
  Cert.ReferenceIdeal.Result.ref_eq x0
    (Cert.ReferenceIdeal.Levels.level1 x0 (Cert.ReferenceIdeal.Reduce.max1 x0) (Cert.ReferenceIdeal.Reduce.sum1 x0))
    (Cert.ReferenceIdeal.Levels.level2 x0 (Cert.ReferenceIdeal.Reduce.max2 x0) (Cert.ReferenceIdeal.Reduce.sum2 x0))
    (Cert.ReferenceIdeal.Levels.level4 x0 (Cert.ReferenceIdeal.Reduce.max4 x0) (Cert.ReferenceIdeal.Reduce.sum4 x0))

/-- From arguments that agree, both programs end with G of the argument as their result. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0)),
    Cert.KernelIdeal.Launch.run (Cert.KernelIdeal.Body.out_eq Cert.KernelIdeal.Math.facts) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v24_eq, reference_result, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
